-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_1)) (v1 : (c : Dev Cert.KernelIdeal.nD) → Buf (Elt Ideal) ((c.tc : Thread Cert.KernelIdeal.nD Cert.KernelIdeal.τ).loc Cert.KernelIdeal.main_v8_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_1) = v0 c
          ∧ r.2.mem ((c.tc : Thread Cert.KernelIdeal.nD Cert.KernelIdeal.τ).loc Cert.KernelIdeal.main_v8_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S512x512 : Shape := ⟨2, ![512, 512]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_arg5 : FVec F S512x512 .f32) (main_arg6 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  main_v33

def fn {F : FTy → Type} [FloatOps F] (main_arg0 : FVec F S4x4096x512 .f32) (main_arg1 : FVec F S4x4096x512 .f32) (main_arg2 : FVec F S4x4096x512 .f32) (main_arg3 : FVec F S512x512 .f32) (main_arg4 : FVec F S512x512 .f32) (main_arg5 : FVec F S512x512 .f32) (main_arg6 : FVec F S512x512 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S4x4096x512 .f32 := Host.absf main_arg1
  let main_cst_0 : FVec F S_ .f32 := constant S_ .f32 0x7F800000#32
  let main_v5 : FVec F S4x4096x512 .f32 := broadcastInDim S4x4096x512 ![] bcast_S_S4x4096x512 main_cst_0
  let main_v6 : IVec S4x4096x512 1 := cmpf .olt main_v4 main_v5
  let main_c_1 : IVec S_ 1 := constantI S_ 1 1#1
  let main_v7 : IVec S_ 1 := (fun x v => Host.reduce IntOp.andi x v reducesTo_S4x4096x512_S_d0_1_2 h_S_) main_v6 main_c_1
  let main_v8 : IVec S_ 1 := andi main_v3 main_v7
  let main_v9 : FVec F S4x4096x512 .f32 := Host.absf main_arg2
  let main_cst_2 : FVec F S_ .f32 := constant S_ .f32 0x7F800000#32
  let main_v10 : FVec F S4x4096x512 .f32 := broadcastInDim S4x4096x512 ![] bcast_S_S4x4096x512 main_cst_2
  let main_v11 : IVec S4x4096x512 1 := cmpf .olt main_v9 main_v10
  let main_c_3 : IVec S_ 1 := constantI S_ 1 1#1
  let main_v12 : IVec S_ 1 := (fun x v => Host.reduce IntOp.andi x v reducesTo_S4x4096x512_S_d0_1_2 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S4x4096x512 : Shape := ⟨3, ![4, 4096, 512]⟩
abbrev S512x512 : Shape := ⟨2, ![512, 512]⟩
abbrev S4x4096x4096 : Shape := ⟨3, ![4, 4096, 4096]⟩
abbrev S1x256x512 : Shape := ⟨3, ![1, 256, 512]⟩
abbrev S1x256x4096 : Shape := ⟨3, ![1, 256, 4096]⟩
abbrev S4096x512 : Shape := ⟨2, ![4096, 512]⟩
abbrev S_ : Shape := ⟨0, ![]⟩
abbrev S1x4096x512 : Shape := ⟨3, ![1, 4096, 512]⟩
abbrev S256x512 : Shape := ⟨2, ![256, 512]⟩
abbrev S256x4096 : Shape := ⟨2, ![256, 4096]⟩
abbrev S256 : Shape := ⟨1, ![256]⟩
abbrev S256x1 : Shape := ⟨2, ![256, 1]⟩

abbrev nBuf : Space → Nat
  | .hbm => 17
  | .vmem => 13
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .bf16⟩
  | .hbm, ⟨9, _⟩ => ⟨S512x512, .f32⟩
  | .hbm, ⟨10, _⟩ => ⟨S512x512, .bf16⟩
  | .hbm, ⟨11, _⟩ => ⟨S512x512, .f32⟩
  | .hbm, ⟨12, _⟩ => ⟨S512x512, .bf16⟩
  | .hbm, ⟨13, _⟩ => ⟨S512x512, .f32⟩
  | .hbm, ⟨14, _⟩ => ⟨S512x512, .bf16⟩
  | .hbm, ⟨15, _⟩ => ⟨S4x4096x4096, .f32⟩
  | .hbm, ⟨16, _⟩ => ⟨S4x4096x512, .f32⟩
  | .local _ .vmem, ⟨0, _⟩ => ⟨S1x256x512, .f32⟩
  | .local _ .vmem, ⟨1, _⟩ => ⟨S1x256x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x256x4096, .f32⟩
  | .local _ .vmem, ⟨7, _⟩ => ⟨S1x256x4096, .f32⟩
  | .local _ .vmem, ⟨8, _⟩ => ⟨S1x256x512, .f32⟩
  | .local _ .vmem, ⟨9, _⟩ => ⟨S1x256x512, .f32⟩
  | .local _ .vmem, ⟨10, _⟩ => ⟨S4096x512, .f32⟩
  | .local _ .vmem, ⟨11, _⟩ => ⟨S4096x512, .f32⟩
  | .local _ .vmem, ⟨12, _⟩ => ⟨S4096x512, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c0_i32_23 : BitVec 32 := 0#32
  let c0_i32_24 : BitVec 32 := 0#32
  ![arg0.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S512x512_S512x512_1_0 : S512x512.Transposes [1, 0] S512x512
  bitsLt_bf16_f32 : FTy.bits .bf16 < FTy.bits .f32
  squeezes_S1x4096x512_S4096x512 : S1x4096x512.Squeezes S4096x512
  inb_S4096x512_S4096x512_0_0 : ∀ a, (![0, 0] : Fin 2 → Nat) a + S4096x512.size a ≤ S4096x512.size a
  h_S4096x512 : 0 < S4096x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S4096x512_S4096x512 : S4096x512.ShapeCasts S4096x512
  packedbf16_S4096x512_S4096x512_0_0 : (Rect.unit (s := S4096x512) ![0, 0] S4096x512.size inb_S4096x512_S4096x512_0_0).PackedRows (EltTy.packing .bf16)
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  reduces_S256x4096_S256 : S256x4096.Reduces [1] S256
  shapeCasts_S256_S256x1 : S256.ShapeCasts S256x1
  broadcasts_S256x1_S256x4096 : S256x1.Broadcasts S256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  shapeCasts_S256x512_S1x256x512 : S256x512.ShapeCasts S1x256x512
  dot_S4096x512_S512x512_S4096x512_1_0_0_1_n_n_wf : DotDims.WF S4096x512 S512x512 S4096x512 [1] [0] [0] [1] [] []
  dot_S256x512_S512x512_S256x512_1_0_0_1_n_n_wf : DotDims.WF S256x512 S512x512 S256x512 [1] [0] [0] [1] [] []
  dot_S256x512_S4096x512_S256x4096_1_1_0_0_n_n_wf : DotDims.WF S256x512 S4096x512 S256x4096 [1] [1] [0] [0] [] []
  dot_S256x4096_S4096x512_S256x512_1_0_0_1_n_n_wf : DotDims.WF S256x4096 S4096x512 S256x512 [1] [0] [0] [1] [] []
  hcc0_scratch3 : 10 + S_.numel ≤ 11
  hrank0 : 0 < grid0.rank
  k0_off1_inb : ∀ i : grid0.Coords, ∀ (k0_h1 : k0_cond1 i = 1#1), ∀ a, (k0_off1 i) a + S1x4096x512.size a ≤ S4x4096x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S4x4096x512.size a
  hwx0_0 : ∀ i : grid0.Coords, EltTy.bits .f32 = 32 ∨ (Rect.block (s := S4x4096x512) S1x256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_3 i = cc0_transform_3 i'
  hinb0_1 : ∀ (i : grid0.Coords) a, (cc0_transform_3 i a + 1) * S512x512.size a ≤ S512x512.size a
  hwx0_1 : ∀ i : grid0.Coords, EltTy.bits .bf16 = 32 ∨ (Rect.block (s := S512x512) S512x512.size (cc0_transform_3 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_4 i = cc0_transform_4 i'
  hinb0_2 : ∀ (i : grid0.Coords) a, (cc0_transform_4 i a + 1) * S512x512.size a ≤ S512x512.size a
  hwx0_2 : ∀ i : grid0.Coords, EltTy.bits .bf16 = 32 ∨ (Rect.block (s := S512x512) S512x512.size (cc0_transform_4 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_5 i = cc0_transform_5 i'
  hinb0_3 : ∀ (i : grid0.Coords) a, (cc0_transform_5 i a + 1) * S512x512.size a ≤ S512x512.size a
  hwx0_3 : ∀ i : grid0.Coords, EltTy.bits .bf16 = 32 ∨ (Rect.block (s := S512x512) S512x512.size (cc0_transform_5 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_6 i = cc0_transform_6 i'
  hinb0_4 : ∀ (i : grid0.Coords) a, (cc0_transform_6 i a + 1) * S512x512.size a ≤ S512x512.size a
  hwx0_4 : ∀ i : grid0.Coords, EltTy.bits .bf16 = 32 ∨ (Rect.block (s := S512x512) S512x512.size (cc0_transform_6 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_7 i = cc0_transform_7 i'
  hinb0_5 : ∀ (i : grid0.Coords) a, (cc0_transform_7 i a + 1) * S1x256x4096.size a ≤ S4x4096x4096.size a
  hwx0_5 : ∀ i : grid0.Coords, EltTy.bits .f32 = 32 ∨ (Rect.block (s := S4x4096x4096) S1x256x4096.size (cc0_transform_7 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_8 i = cc0_transform_8 i'
  hinb0_6 : ∀ (i : grid0.Coords) a, (cc0_transform_8 i a + 1) * S1x256x512.size a ≤ S4x4096x512.size a
  hwx0_6 : ∀ i : grid0.Coords, EltTy.bits .f32 = 32 ∨ (Rect.block (s := S4x4096x512) S1x256x512.size (cc0_transform_8 i) (hinb0_6 i)).WholeWords (EltTy.packing .f32)

variable [Facts₀]

abbrev cc0_scratch3 : DmaSems sig S_ := SemArray.consecutive 10 S_ hcc0_scratch3
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_3 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x512.size cc0_transform_4 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x512.size cc0_transform_5 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x512.size cc0_transform_6 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8_0) S1x256x4096.size cc0_transform_7 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_1) S1x256x512.size cc0_transform_8 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x4096x512 : Shape := ⟨3, ![4, 4096, 512]⟩
abbrev S512x512 : Shape := ⟨2, ![512, 512]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S4x4096x512, .f32⟩
  | .hbm, ⟨8, _⟩ => ⟨S4x4096x512, .f32⟩
  | .hbm, ⟨9, _⟩ => ⟨S4x4096x512, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096, .f32⟩
  | .hbm, ⟨16, _⟩ => ⟨S_, .f32⟩
  | .hbm, ⟨17, _⟩ => ⟨S4x4096, .f32⟩
  | .hbm, ⟨18, _⟩ => ⟨S4x4096, .f32⟩
  | .hbm, ⟨19, _⟩ => ⟨S4x4096x1, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S4x4096x4096, .f32⟩
  | .hbm, ⟨27, _⟩ => ⟨S4x4096x4096, .f32⟩
  | .hbm, ⟨28, _⟩ => ⟨S4x4096x512, .f32⟩
  | .hbm, ⟨29, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x512_S512x512_S4x4096x512_2_1_01_0_n_n_wf : DotDims.WF S4x4096x512 S512x512 S4x4096x512 [2] [1] [0, 1] [0] [] []
  dot_S4x4096x512_S4x4096x512_S4x4096x4096_2_2_1_1_0_0_wf : DotDims.WF S4x4096x512 S4x4096x512 S4x4096x4096 [2] [2] [1] [1] [0] [0]
  dot_S4x4096x4096_S4x4096x512_S4x4096x512_2_1_1_2_0_0_wf : DotDims.WF S4x4096x4096 S4x4096x512 S4x4096x512 [2] [1] [1] [2] [0] [0]

variable [Facts₀]

def dot_S4x4096x512_S512x512_S4x4096x512_2_1_01_0_n_n : DotDims S4x4096x512 S512x512 S4x4096x512 where
  lhsContracting := [2]
  rhsContracting := [1]
  lhsNonContracting := [0, 1]
  rhsNonContracting := [0]
  lhsBatch := []
  rhsBatch := []
  wf := dot_S4x4096x512_S512x512_S4x4096x512_2_1_01_0_n_n_wf
def dot_S4x4096x512_S4x4096x512_S4x4096x4096_2_2_1_1_0_0 : DotDims S4x4096x512 S4x4096x512 S4x4096x4096 where
  lhsContracting := [2]
  rhsContracting := [2]
  lhsNonContracting := [1]
  rhsNonContracting := [1]
  lhsBatch := [0]
  rhsBatch := [0]
  wf := dot_S4x4096x512_S4x4096x512_S4x4096x4096_2_2_1_1_0_0_wf
def dot_S4x4096x4096_S4x4096x512_S4x4096x512_2_1_1_2_0_0 : DotDims S4x4096x4096 S4x4096x512 S4x4096x512 where
  lhsContracting := [2]
  rhsContracting := [1]
  lhsNonContracting := [1]
  rhsNonContracting := [2]
  lhsBatch := [0]
  rhsBatch := [0]
  wf := dot_S4x4096x4096_S4x4096x512_S4x4096x512_2_1_1_2_0_0_wf

class Facts : Prop extends Facts₀ where

variable [Facts]
-- ==== Proof.Attention.lean ====
/-
  Single-head attention over the full channel, as one family of index-by-index functions of the seven argument
  arrays, on the extended reals.

  For a batch b, a query row q, a key row k and a channel e:
    lin X W b s e   = ∑ d, X[b,s,d] · W[e,d]                      (the linear map y = x Wᵀ, no bias)
    score  b q k    = (∑ e, lin Q WQ b q e · lin K WK b k e) / c   (c the scaling literal, never evaluated)
    weight b q k    = softmaxRow (score b q ·) k
    mix    b q e    = ∑ k, weight b q k · lin V WV b k e
    out    b q d    = ∑ e, mix b q e · WO[d,e]
  where softmaxRow s k = exp (s k − M) / ∑ k', exp (s k' − M) and M is the maximum of the row s taken as a fold of
  max from −∞.  No law of arithmetic is used anywhere below this file: both programs compute exactly these sums, in
  this order of nesting; what differs between them is only how the arrays are cut into blocks.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- A [4, 4096, 512] array of extended reals (Q, K, V and the second result). -/
abbrev Act := (⟨3, ![4, 4096, 512]⟩ : Shape).Idx → EReal
/-- A [512, 512] array of extended reals (the four weights). -/
abbrev Wgt := (⟨2, ![512, 512]⟩ : Shape).Idx → EReal

/-- The scaling literal 8.0 and the reductions' −∞, as the words both programs print. -/
abbrev cScale : EReal := Ideal.ofBits .f32 0x41000000#32
abbrev negInf : EReal := Ideal.ofBits .f32 0xFF800000#32

/-- The maximum of a row of 4096 scores: the fold of max from −∞. -/
def rowMax (s : Fin 4096 → EReal) : EReal := (Finset.univ : Finset (Fin 4096)).fold max negInf s

/-- One entry of the softmax of a row of 4096 scores. -/
def softmaxRow (s : Fin 4096 → EReal) (k : Fin 4096) : EReal :=
  Ideal.div (Ideal.exp (s k - rowMax s)) (∑ k' : Fin 4096, Ideal.exp (s k' - rowMax s))

/-- The score of a projected query row against a projected key row. -/
def scoreOf (qrow krow : Fin 512 → EReal) : EReal := Ideal.div (∑ e : Fin 512, qrow e * krow e) cScale

/-- y = x Wᵀ at (b, s, e). -/
def lin (X : Act) (W : Wgt) (b : Fin 4) (s : Fin 4096) (e : Fin 512) : EReal :=
  ∑ d : Fin 512, X (ix3 b s d) * W (ix2 e d)

def score (Q K : Act) (WQ WK : Wgt) (b : Fin 4) (q k : Fin 4096) : EReal :=
  scoreOf (lin Q WQ b q) (lin K WK b k)

/-- The attention weights: the first array the programs are compared on, [4, 4096, 4096]. -/
def weight (Q K : Act) (WQ WK : Wgt) (b : Fin 4) (q k : Fin 4096) : EReal :=
  softmaxRow (score Q K WQ WK b q) k

def mix (Q K V : Act) (WQ WK WV : Wgt) (b : Fin 4) (q : Fin 4096) (e : Fin 512) : EReal :=
  ∑ k : Fin 4096, weight Q K WQ WK b q k * lin V WV b k e

/-- The attended values through the output map: the second array, [4, 4096, 512]. -/
def out (Q K V : Act) (WQ WK WV WO : Wgt) (b : Fin 4) (q : Fin 4096) (d : Fin 512) : EReal :=
  ∑ e : Fin 512, mix Q K V WQ WK WV b q e * WO (ix2 d e)

/-- The two results as whole arrays. -/
def weightArr (Q K : Act) (WQ WK : Wgt) : (⟨3, ![4, 4096, 4096]⟩ : Shape).Idx → EReal :=
  fun i => weight Q K WQ WK (i 0) (i 1) (i 2)
def outArr (Q K V : Act) (WQ WK WV WO : Wgt) : (⟨3, ![4, 4096, 512]⟩ : Shape).Idx → EReal :=
  fun i => out Q K V WQ WK WV WO (i 0) (i 1) (i 2)

/-- −∞ is the least extended real, so taking the maximum with it changes nothing. -/
theorem negInf_eq_bot : negInf = ⊥ := by simp [negInf, Ideal.ofBits, Ideal.ieee]

theorem max_negInf (x : EReal) : max negInf x = x := by rw [negInf_eq_bot]; exact bot_sup_eq x

end Cert.Attn

end
-- ==== Proof.RefIsAttention.lean ====
/-
  The reference program, read one operation at a time at the extended reals, computes the attention functions of
  Attention.lean: each of its three projections is `lin`, its batched product of the projected queries and keys over
  the scaling literal is `score`, the softmax it spells out (row maximum, subtraction, exponential, row sum,
  quotient) is `softmaxRow`, and the two closing products are `mix` and `out`.  The only facts used beyond
  reading indices are that the maximum with −∞ is the other argument and that zero plus a sum is the sum.
-/
import proofs.«177312_j11862699671873_2_alg».proof.Proof.Gen.ReferenceIdeal.Read
import proofs.«177312_j11862699671873_2_alg».proof.Proof.Attention

noncomputable section

namespace Cert.Attn.Ref

open Cert.ReferenceIdeal Cert.ReferenceIdeal.Gen Cert.ReferenceIdeal.Read
open Idealize.ShloMosaic Idealize.ShloMosaic.TcCoe Idealize.ShloMosaic.ValueIdx

/-- The reference's argument arrays at the extended reals. -/
abbrev A := (⟨S4x4096x512, .f32⟩ : BufTy).Contents (Elt Ideal)
abbrev W := (⟨S512x512, .f32⟩ : BufTy).Contents (Elt Ideal)

/-- The query projection at (b, s, e) is the linear map of Q by WQ there. -/
theorem v0_at (X : A) (Wt : W) (b : Fin 4) (s : Fin 4096) (e : Fin 512) :
    val_main_v0 (F := Ideal) X Wt (ix3 b s e) = lin X Wt b s e := by
  rw [val_main_v0_apply]
  unfold lin
  refine Finset.sum_congr rfl fun d _ => ?_
  have el : lidx_main_v0 (ix3 b s e) d = ix3 b s d :=
    funext fun a => by match a with | ⟨0, _⟩ => rfl | ⟨1, _⟩ => rfl | ⟨2, _⟩ => rfl
  have er : ridx_main_v0 (ix3 b s e) d = ix2 e d :=
    funext fun a => by match a with | ⟨0, _⟩ => rfl | ⟨1, _⟩ => rfl
  rw [el, er]

/-- The key projection likewise. -/
theorem v1_at (X : A) (Wt : W) (b : Fin 4) (s : Fin 4096) (e : Fin 512) :
    val_main_v1 (F := Ideal) X Wt (ix3 b s e) = lin X Wt b s e := by
  rw [val_main_v1_apply]
  unfold lin
  refine Finset.sum_congr rfl fun d _ => ?_
  have el : lidx_main_v1 (ix3 b s e) d = ix3 b s d :=
    funext fun a => by match a with | ⟨0, _⟩ => rfl | ⟨1, _⟩ => rfl | ⟨2, _⟩ => rfl
  have er : ridx_main_v1 (ix3 b s e) d = ix2 e d :=
    funext fun a => by match a with | ⟨0, _⟩ => rfl | ⟨1, _⟩ => rfl
  rw [el, er]

/-- The value projection likewise. -/
theorem v2_at (X : A) (Wt : W) (b : Fin 4) (s : Fin 4096) (e : Fin 512) :
    val_main_v2 (F := Ideal) X Wt (ix3 b s e) = lin X Wt b s e := by
  rw [val_main_v2_apply]
  unfold lin
  refine Finset.sum_congr rfl fun d _ => ?_
  have el : lidx_main_v2 (ix3 b s e) d = ix3 b s d :=
    funext fun a => by match a with | ⟨0, _⟩ => rfl | ⟨1, _⟩ => rfl | ⟨2, _⟩ => rfl
  have er : ridx_main_v2 (ix3 b s e) d = ix2 e d :=
    funext fun a => by match a with | ⟨0, _⟩ => rfl | ⟨1, _⟩ => rfl
  rw [el, er]

/-- The scaled scores at (b, q, k). -/
theorem v5_at (Q K : A) (WQ WK : W) (b : Fin 4) (q k : Fin 4096) :
    val_main_v5 (F := Ideal) Q K WQ WK (ix3 b q k) = score Q K WQ WK b q k := by
  rw [val_main_v5_apply, val_main_v3_apply, val_main_v4_apply, val_main_cst_apply]
  unfold score scoreOf
  show Ideal.div _ _ = Ideal.div _ _
  congr 1
  refine Finset.sum_congr rfl fun e _ => ?_
  have el : lidx_main_v3 (ix3 b q k) e = ix3 b q e :=
    funext fun a => by match a with | ⟨0, _⟩ => rfl | ⟨1, _⟩ => rfl | ⟨2, _⟩ => rfl
  have er : ridx_main_v3 (ix3 b q k) e = ix3 b k e :=
    funext fun a => by match a with | ⟨0, _⟩ => rfl | ⟨1, _⟩ => rfl | ⟨2, _⟩ => rfl
  rw [el, er, v0_at, v1_at]

/-- Putting the key coordinate back into a reduced (b, q) index gives (b, q, k). -/
theorem lift_d2 (h : S4x4096x4096.Reduces [2] S4x4096) (b : Fin 4) (q : Fin 4096) (k : Fin (S4x4096x4096.size 2)) :
    h.lift (ix2 b q) k = ix3 b q (⟨k.val, k.isLt⟩ : Fin 4096) := by
  funext a; apply Fin.ext
  match a with
  | ⟨0, _⟩ => rfl
  | ⟨1, _⟩ => rfl
  | ⟨2, _⟩ => rfl

/-- The row maximum the softmax subtracts, at (b, q): the reduce's fold from −∞, and the further maximum with −∞
    that the softmax spells out changes nothing. -/
theorem v8_at (Q K : A) (WQ WK : W) (b : Fin 4) (q : Fin 4096) :
    val_main_v8 (F := Ideal) Q K WQ WK (ix2 b q) = rowMax (score Q K WQ WK b q) := by
  have hR : S4x4096x4096.Reduces [2] S4x4096 := by decide
  rw [val_main_v8_apply, val_main_v7_apply, val_main_cst_1_apply]
  unfold val_main_v6
  rw [Host.reduce_eq_fold_single FloatOps.maximumf _ _ reducesTo_S4x4096x4096_S4x4096_d2 hR h_S_]
  show max negInf _ = _
  rw [max_negInf]
  unfold rowMax
  have hf : (val_main_v5 (F := Ideal) Q K WQ WK ∘ hR.lift (ix2 b q)) = score Q K WQ WK b q := funext fun k => by
    show val_main_v5 (F := Ideal) Q K WQ WK (hR.lift (ix2 b q) k) = _
    rw [lift_d2, v5_at]
    rfl
  rw [hf]
  rfl

/-- The exponentials the softmax sums, at (b, q, k). -/
theorem v12_at (Q K : A) (WQ WK : W) (b : Fin 4) (q k : Fin 4096) :
    val_main_v12 (F := Ideal) Q K WQ WK (ix3 b q k)
      = Ideal.exp (score Q K WQ WK b q k - rowMax (score Q K WQ WK b q)) := by
  rw [val_main_v12_apply, val_main_v11_apply, val_main_v10_apply, val_main_v9_apply]
  have e1 : idx_main_v9 (idx_main_v10 (ix3 b q k)) = ix2 b q :=
    funext fun a => by match a with | ⟨0, _⟩ => rfl | ⟨1, _⟩ => rfl
  rw [e1, v8_at, v5_at]
  rfl

/-- The softmax's denominators, at (b, q): zero plus the row's sum. -/
theorem v13_at (Q K : A) (WQ WK : W) (b : Fin 4) (q : Fin 4096) :
    val_main_v13 (F := Ideal) Q K WQ WK (ix2 b q)
      = ∑ k : Fin 4096, Ideal.exp (score Q K WQ WK b q k - rowMax (score Q K WQ WK b q)) := by
  rw [val_main_v13_apply, val_main_cst_2_apply]
  show Ideal.ofBits .f32 0x00000000#32 + _ = _
  rw [Ideal.ofBits_zero_f32, zero_add]
  refine Finset.sum_congr rfl fun k _ => ?_
  have e1 : idx_main_v13 (ix2 b q) k = ix3 b q k :=
    funext fun a => by match a with | ⟨0, _⟩ => rfl | ⟨1, _⟩ => rfl | ⟨2, _⟩ => rfl
  rw [e1, v12_at]

/-- The reference's attention weights are `weight`, index by index. -/
theorem v16_at (Q K : A) (WQ WK : W) (b : Fin 4) (q k : Fin 4096) :
    val_main_v16 (F := Ideal) Q K WQ WK (ix3 b q k) = weight Q K WQ WK b q k := by
  rw [val_main_v16_apply, val_main_v15_apply, val_main_v14_apply]
  have e1 : idx_main_v14 (idx_main_v15 (ix3 b q k)) = ix2 b q :=
    funext fun a => by match a with | ⟨0, _⟩ => rfl | ⟨1, _⟩ => rfl
  rw [e1, v13_at, v12_at]
  rfl

theorem weights_eq (Q K : A) (WQ WK : W) :
    val_main_v16 (F := Ideal) Q K WQ WK = weightArr Q K WQ WK := by
  funext i
  obtain ⟨b, q, k, rfl⟩ : ∃ (b : Fin 4) (q k : Fin 4096), i = ix3 b q k := ⟨i 0, i 1, i 2, eq_ix3 i⟩
  exact v16_at Q K WQ WK b q k

/-- The attended values, at (b, q, e). -/
theorem v17_at (Q K V : A) (WQ WK WV : W) (b : Fin 4) (q : Fin 4096) (e : Fin 512) :
    val_main_v17 (F := Ideal) Q K V WQ WK WV (ix3 b q e) = mix Q K V WQ WK WV b q e := by
  rw [val_main_v17_apply]
  unfold mix
  refine Finset.sum_congr rfl fun k _ => ?_
  have el : lidx_main_v17 (ix3 b q e) k = ix3 b q k :=
    funext fun a => by match a with | ⟨0, _⟩ => rfl | ⟨1, _⟩ => rfl | ⟨2, _⟩ => rfl
  have er : ridx_main_v17 (ix3 b q e) k = ix3 b k e :=
    funext fun a => by match a with | ⟨0, _⟩ => rfl | ⟨1, _⟩ => rfl | ⟨2, _⟩ => rfl
  rw [el, er, v16_at, v2_at]

/-- The reference's first result is `out`, index by index. -/
theorem v18_at (Q K V : A) (WQ WK WV WO : W) (b : Fin 4) (q : Fin 4096) (d : Fin 512) :
    val_main_v18 (F := Ideal) Q K V WQ WK WV WO (ix3 b q d) = out Q K V WQ WK WV WO b q d := by
  rw [val_main_v18_apply]
  unfold out
  refine Finset.sum_congr rfl fun e _ => ?_
  have el : lidx_main_v18 (ix3 b q d) e = ix3 b q e :=
    funext fun a => by match a with | ⟨0, _⟩ => rfl | ⟨1, _⟩ => rfl | ⟨2, _⟩ => rfl
  have er : ridx_main_v18 (ix3 b q d) e = ix2 d e :=
    funext fun a => by match a with | ⟨0, _⟩ => rfl | ⟨1, _⟩ => rfl
  rw [el, er, v17_at]

theorem out_eq (Q K V : A) (WQ WK WV WO : W) :
    val_main_v18 (F := Ideal) Q K V WQ WK WV WO = outArr Q K V WQ WK WV WO := by
  funext i
  obtain ⟨b, q, d, rfl⟩ : ∃ (b : Fin 4) (q : Fin 4096) (d : Fin 512), i = ix3 b q d := ⟨i 0, i 1, i 2, eq_ix3 i⟩
  exact v18_at Q K V WQ WK WV WO b q d

end Cert.Attn.Ref

end
-- ==== Proof.BodyValues.lean ====
/-
  What one grid point's body leaves in each buffer it writes, as a value: the payload functions of the generated
  skeleton applied to the blocks the point was handed.

  A point whose query-tile coordinate is 0 first copies the batch's [4096, 512] slabs of K and of V out of HBM into a
  staging scratch, one after the other, and stores their projections into the two scratch buffers that stay resident;
  it then reads the key projection it has just stored.  Every other point reads the two resident buffers as the point
  before left them.  In both cases the attention-weight block is the softmax payload of the query block, the query
  weight and the resident key projection, and the result block is the closing payload of those and of the resident
  value projection and the output weight.
-/
import proofs.«177312_j11862699671873_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The [4096, 512] slab of batch `i 0` of an argument left in HBM, as the body's own copy delivers it. -/
def slab (c : Dev nD) (i : grid0.Coords) (hc0 : cond0_0 i) (M : Memref sig .tc .hbm S4x4096x512 .f32)
    (fh : HbBuf0 (F := F) c M) : Vec F S4096x512 .f32 :=
  View.read (Elt F) (((M.slice (Rect.unit (s := S4x4096x512) (k0_off1 i) S1x4096x512.size (k0_off1_inb i hc0))
    (fun _ => rfl)).squeeze S4096x512 squeezes_S1x4096x512_S4096x512).view) fh

/-- A whole-buffer load after a whole-buffer delivery (the last of possibly several) reads what was delivered. -/
theorem readCov_whole_cons {sp : Space} (v : View sig .tc sp S4096x512 .f32) (w : S4096x512.Idx → Elt F .f32)
    (L : List (View.Piece (Elt F) S4096x512 .f32)) (inb) :
    v.readCov ((⟨Rect.whole S4096x512, w⟩ : View.Piece (Elt F) S4096x512 .f32) :: L)
      (Rect.unit (s := S4096x512) ![0, 0] S4096x512.size inb).toLoadRect = w := by
  rw [View.readCov_eq_canon_ld _ _ _ (fun y => ⟨_, List.mem_cons_self, by
    show y ∈ (Rect.whole S4096x512).set; rw [Rect.set_whole]; exact Finset.mem_univ y⟩)]
  rw [View.ld_unit_zero hz2]
  exact View.canon_cons_unit_zero (off := fun _ => 0) rfl (fun a => Nat.le_of_eq (Nat.zero_add _)) w L

/-- At a first point of a batch: the resident key projection is the projection payload of K's slab. -/
theorem keyProj_first (c : Dev nD) (i : grid0.Coords) (arg2 : Memref sig .tc .vmem S1x256x512 .f32) (harg2 : arg2.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S1x256x4096 .f32) (harg9 : arg9.IsWhole) (arg10 : Memref sig .tc .vmem S1x256x512 .f32) (harg10 : arg10.IsWhole) (arg11 : Memref sig .tc .vmem S4096x512 .f32) (harg11 : arg11.IsWhole) (arg12 : Memref sig .tc .vmem S4096x512 .f32) (harg12 : arg12.IsWhole) (arg13 : Memref sig .tc .vmem S4096x512 .bf16) (harg13 : arg13.IsWhole) (hc0 : cond0_0 i)
    (x0 : Vec F S1x256x512 .f32) (x1 : Vec F S512x512 .bf16) (x2 : Vec F S512x512 .bf16) (x3 : Vec F S512x512 .bf16) (x4 : Vec F S512x512 .bf16) (fh0 : HbBuf0 (F := F) c hbM0_0) (fh1 : HbBuf0 (F := F) c hbM0_1) :
    sout0_A_1 c i arg2 harg2 arg5 harg5 arg6 harg6 arg7 harg7 arg8 harg8 arg9 harg9 arg10 harg10 arg11 harg11 arg12 harg12 arg13 harg13 hc0 x0 x1 x2 x3 x4 fh0 fh1 = k0_pay2 (slab c i hc0 hbM0_0 fh0) x2 := by
  unfold sout0_A_1
  rw [View.read_writes_eq_canon _ _ _ (scover0_A_1 c i arg2 harg2 arg5 harg5 arg6 harg6 arg7 harg7 arg8 harg8 arg9 harg9 arg10 harg10 arg11 harg11 arg12 harg12 arg13 harg13 hc0 x0 x1 x2 x3 x4 fh0 fh1)]
  unfold kernelRun0_A
  dsimp only
  sl_unfold_words
  rw [View.canon_unit_zero hz2]
  simp only [View.readAt_eq_ld, harg6.read_unread, View.ld_unit_zero (S := S512x512) hz2]
  refine congrArg (fun z => k0_pay2 z x2) ?_
  exact (readCov_whole_cons _ _ _ _).trans rfl

/-- At a first point of a batch: the resident value projection is the projection payload of V's slab (the staging
    scratch holds V's slab then: its delivery came after K's). -/
theorem valProj_first (c : Dev nD) (i : grid0.Coords) (arg2 : Memref sig .tc .vmem S1x256x512 .f32) (harg2 : arg2.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S1x256x4096 .f32) (harg9 : arg9.IsWhole) (arg10 : Memref sig .tc .vmem S1x256x512 .f32) (harg10 : arg10.IsWhole) (arg11 : Memref sig .tc .vmem S4096x512 .f32) (harg11 : arg11.IsWhole) (arg12 : Memref sig .tc .vmem S4096x512 .f32) (harg12 : arg12.IsWhole) (arg13 : Memref sig .tc .vmem S4096x512 .bf16) (harg13 : arg13.IsWhole) (hc0 : cond0_0 i)
    (x0 : Vec F S1x256x512 .f32) (x1 : Vec F S512x512 .bf16) (x2 : Vec F S512x512 .bf16) (x3 : Vec F S512x512 .bf16) (x4 : Vec F S512x512 .bf16) (fh0 : HbBuf0 (F := F) c hbM0_0) (fh1 : HbBuf0 (F := F) c hbM0_1) :
    sout0_A_2 c i arg2 harg2 arg5 harg5 arg6 harg6 arg7 harg7 arg8 harg8 arg9 harg9 arg10 harg10 arg11 harg11 arg12 harg12 arg13 harg13 hc0 x0 x1 x2 x3 x4 fh0 fh1 = k0_pay3 (slab c i hc0 hbM0_1 fh1) x3 := by
  unfold sout0_A_2
  rw [View.read_writes_eq_canon _ _ _ (scover0_A_2 c i arg2 harg2 arg5 harg5 arg6 harg6 arg7 harg7 arg8 harg8 arg9 harg9 arg10 harg10 arg11 harg11 arg12 harg12 arg13 harg13 hc0 x0 x1 x2 x3 x4 fh0 fh1)]
  unfold kernelRun0_A
  dsimp only
  sl_unfold_words
  rw [View.canon_unit_zero hz2]
  simp only [View.readAt_eq_ld, harg7.read_unread, View.ld_unit_zero (S := S512x512) hz2]
  refine congrArg (fun z => k0_pay3 z x3) ?_
  exact (readCov_whole_cons _ _ _ _).trans rfl

/-- At a first point of a batch: the attention-weight block. -/
theorem weights_first (c : Dev nD) (i : grid0.Coords) (arg2 : Memref sig .tc .vmem S1x256x512 .f32) (harg2 : arg2.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S1x256x4096 .f32) (harg9 : arg9.IsWhole) (arg10 : Memref sig .tc .vmem S1x256x512 .f32) (harg10 : arg10.IsWhole) (arg11 : Memref sig .tc .vmem S4096x512 .f32) (harg11 : arg11.IsWhole) (arg12 : Memref sig .tc .vmem S4096x512 .f32) (harg12 : arg12.IsWhole) (arg13 : Memref sig .tc .vmem S4096x512 .bf16) (harg13 : arg13.IsWhole) (hc0 : cond0_0 i)
    (x0 : Vec F S1x256x512 .f32) (x1 : Vec F S512x512 .bf16) (x2 : Vec F S512x512 .bf16) (x3 : Vec F S512x512 .bf16) (x4 : Vec F S512x512 .bf16) (fh0 : HbBuf0 (F := F) c hbM0_0) (fh1 : HbBuf0 (F := F) c hbM0_1) :
    out0_A_5 c i arg2 harg2 arg5 harg5 arg6 harg6 arg7 harg7 arg8 harg8 arg9 harg9 arg10 harg10 arg11 harg11 arg12 harg12 arg13 harg13 hc0 x0 x1 x2 x3 x4 fh0 fh1 = k0_pay5 x0 x1 (k0_pay2 (slab c i hc0 hbM0_0 fh0) x2) := by
  unfold out0_A_5
  rw [View.read_writes_eq_canon _ _ _ (cover0_A_5 c i arg2 harg2 arg5 harg5 arg6 harg6 arg7 harg7 arg8 harg8 arg9 harg9 arg10 harg10 arg11 harg11 arg12 harg12 arg13 harg13 hc0 x0 x1 x2 x3 x4 fh0 fh1)]
  unfold kernelRun0_A
  dsimp only
  sl_unfold_words
  rw [View.canon_unit_zero hz3]
  simp only [View.readAt_eq_ld, harg2.read_unread, harg5.read_unread, harg6.read_unread,
    View.ld_unit_zero (S := S1x256x512) hz3, View.ld_unit_zero (S := S512x512) hz2]
  refine congrArg (fun z => k0_pay5 x0 x1 z) ?_
  refine (View.readCov_unit_zero _ hz2 _ _).trans ?_
  refine congrArg (fun z => k0_pay2 z x2) ?_
  exact (readCov_whole_cons _ _ _ _).trans rfl

/-- At a first point of a batch: the result block. -/
theorem result_first (c : Dev nD) (i : grid0.Coords) (arg2 : Memref sig .tc .vmem S1x256x512 .f32) (harg2 : arg2.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S1x256x4096 .f32) (harg9 : arg9.IsWhole) (arg10 : Memref sig .tc .vmem S1x256x512 .f32) (harg10 : arg10.IsWhole) (arg11 : Memref sig .tc .vmem S4096x512 .f32) (harg11 : arg11.IsWhole) (arg12 : Memref sig .tc .vmem S4096x512 .f32) (harg12 : arg12.IsWhole) (arg13 : Memref sig .tc .vmem S4096x512 .bf16) (harg13 : arg13.IsWhole) (hc0 : cond0_0 i)
    (x0 : Vec F S1x256x512 .f32) (x1 : Vec F S512x512 .bf16) (x2 : Vec F S512x512 .bf16) (x3 : Vec F S512x512 .bf16) (x4 : Vec F S512x512 .bf16) (fh0 : HbBuf0 (F := F) c hbM0_0) (fh1 : HbBuf0 (F := F) c hbM0_1) :
    out0_A_6 c i arg2 harg2 arg5 harg5 arg6 harg6 arg7 harg7 arg8 harg8 arg9 harg9 arg10 harg10 arg11 harg11 arg12 harg12 arg13 harg13 hc0 x0 x1 x2 x3 x4 fh0 fh1
      = k0_pay1 (k0_pay6 x0 x1 (k0_pay2 (slab c i hc0 hbM0_0 fh0) x2) (k0_pay3 (slab c i hc0 hbM0_1 fh1) x3) x4) := by
  unfold out0_A_6
  rw [View.read_writes_eq_canon _ _ _ (cover0_A_6 c i arg2 harg2 arg5 harg5 arg6 harg6 arg7 harg7 arg8 harg8 arg9 harg9 arg10 harg10 arg11 harg11 arg12 harg12 arg13 harg13 hc0 x0 x1 x2 x3 x4 fh0 fh1)]
  unfold kernelRun0_A
  dsimp only
  sl_unfold_words
  rw [View.canon_unit_zero hz3]
  simp only [View.readAt_eq_ld, harg2.read_unread, harg5.read_unread, harg6.read_unread, harg7.read_unread,
    harg8.read_unread, View.ld_unit_zero (S := S1x256x512) hz3, View.ld_unit_zero (S := S512x512) hz2]
  have e1 : ∀ (v : View sig .tc .vmem S4096x512 .f32) (w : S4096x512.Idx → Elt F .f32) (inb),
      v.readCov [(⟨Rect.unit (s := S4096x512) ![0, 0] S4096x512.size inb, w⟩ : View.Piece (Elt F) S4096x512 .f32)]
        (Rect.unit (s := S4096x512) ![0, 0] S4096x512.size inb).toLoadRect = w :=
    fun v w inb => View.readCov_unit_zero v hz2 inb w
  have e2 : ∀ (v : View sig .tc .vmem S4096x512 .bf16) (w : S4096x512.Idx → Elt F .bf16) (inb),
      v.readCov [(⟨Rect.unit (s := S4096x512) ![0, 0] S4096x512.size inb, w⟩ : View.Piece (Elt F) S4096x512 .bf16)]
        (Rect.unit (s := S4096x512) ![0, 0] S4096x512.size inb).toLoadRect = w :=
    fun v w inb => View.readCov_unit_zero v hz2 inb w
  refine congrArg k0_pay1 ?_
  refine (congrArg (fun z => k0_pay6 x0 x1 z _ x4) ((e1 _ _ _).trans (congrArg (fun z => k0_pay2 z x2) ((readCov_whole_cons _ _ _ _).trans rfl)))).trans ?_
  exact congrArg (fun z => k0_pay6 x0 x1 _ z x4) ((e2 _ _ _).trans (congrArg (fun z => k0_pay3 z x3) ((readCov_whole_cons _ _ _ _).trans rfl)))

/-- At any other point: the attention-weight block, over the resident key projection. -/
theorem weights_later (c : Dev nD) (i : grid0.Coords) (arg2 : Memref sig .tc .vmem S1x256x512 .f32) (harg2 : arg2.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S1x256x4096 .f32) (harg9 : arg9.IsWhole) (arg10 : Memref sig .tc .vmem S1x256x512 .f32) (harg10 : arg10.IsWhole) (arg11 : Memref sig .tc .vmem S4096x512 .f32) (harg11 : arg11.IsWhole) (arg12 : Memref sig .tc .vmem S4096x512 .f32) (harg12 : arg12.IsWhole) (arg13 : Memref sig .tc .vmem S4096x512 .bf16) (harg13 : arg13.IsWhole) (hc0 : ¬cond0_0 i)
    (x0 : Vec F S1x256x512 .f32) (x1 : Vec F S512x512 .bf16) (x2 : Vec F S512x512 .bf16) (x3 : Vec F S512x512 .bf16) (x4 : Vec F S512x512 .bf16) (xs1 : Vec F S4096x512 .f32) (xs2 : Vec F S4096x512 .bf16) (fh0 : HbBuf0 (F := F) c hbM0_0) (fh1 : HbBuf0 (F := F) c hbM0_1) :
    out0_B_5 c i arg2 harg2 arg5 harg5 arg6 harg6 arg7 harg7 arg8 harg8 arg9 harg9 arg10 harg10 arg11 harg11 arg12 harg12 arg13 harg13 hc0 x0 x1 x2 x3 x4 xs1 xs2 fh0 fh1 = k0_pay5 x0 x1 xs1 := by
  unfold out0_B_5
  rw [View.read_writes_eq_canon _ _ _ (cover0_B_5 c i arg2 harg2 arg5 harg5 arg6 harg6 arg7 harg7 arg8 harg8 arg9 harg9 arg10 harg10 arg11 harg11 arg12 harg12 arg13 harg13 hc0 x0 x1 x2 x3 x4 xs1 xs2 fh0 fh1)]
  unfold kernelRun0_B
  dsimp only
  sl_unfold_words
  rw [View.canon_unit_zero hz3]
  simp only [View.readAt_eq_ld, harg2.read_unread, harg5.read_unread, harg12.read_unread,
    View.ld_unit_zero (S := S1x256x512) hz3, View.ld_unit_zero (S := S512x512) hz2, View.ld_unit_zero (S := S4096x512) hz2]

/-- At any other point: the result block, over the two resident projections. -/
theorem result_later (c : Dev nD) (i : grid0.Coords) (arg2 : Memref sig .tc .vmem S1x256x512 .f32) (harg2 : arg2.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S1x256x4096 .f32) (harg9 : arg9.IsWhole) (arg10 : Memref sig .tc .vmem S1x256x512 .f32) (harg10 : arg10.IsWhole) (arg11 : Memref sig .tc .vmem S4096x512 .f32) (harg11 : arg11.IsWhole) (arg12 : Memref sig .tc .vmem S4096x512 .f32) (harg12 : arg12.IsWhole) (arg13 : Memref sig .tc .vmem S4096x512 .bf16) (harg13 : arg13.IsWhole) (hc0 : ¬cond0_0 i)
    (x0 : Vec F S1x256x512 .f32) (x1 : Vec F S512x512 .bf16) (x2 : Vec F S512x512 .bf16) (x3 : Vec F S512x512 .bf16) (x4 : Vec F S512x512 .bf16) (xs1 : Vec F S4096x512 .f32) (xs2 : Vec F S4096x512 .bf16) (fh0 : HbBuf0 (F := F) c hbM0_0) (fh1 : HbBuf0 (F := F) c hbM0_1) :
    out0_B_6 c i arg2 harg2 arg5 harg5 arg6 harg6 arg7 harg7 arg8 harg8 arg9 harg9 arg10 harg10 arg11 harg11 arg12 harg12 arg13 harg13 hc0 x0 x1 x2 x3 x4 xs1 xs2 fh0 fh1 = k0_pay1 (k0_pay6 x0 x1 xs1 xs2 x4) := by
  unfold out0_B_6
  rw [View.read_writes_eq_canon _ _ _ (cover0_B_6 c i arg2 harg2 arg5 harg5 arg6 harg6 arg7 harg7 arg8 harg8 arg9 harg9 arg10 harg10 arg11 harg11 arg12 harg12 arg13 harg13 hc0 x0 x1 x2 x3 x4 xs1 xs2 fh0 fh1)]
  unfold kernelRun0_B
  dsimp only
  sl_unfold_words
  rw [View.canon_unit_zero hz3]
  simp only [View.readAt_eq_ld, harg2.read_unread, harg5.read_unread, harg8.read_unread, harg12.read_unread,
    harg13.read_unread, View.ld_unit_zero (S := S1x256x512) hz3, View.ld_unit_zero (S := S512x512) hz2,
    View.ld_unit_zero (S := S4096x512) hz2]

end Cert.KernelIdeal.Pieces

end
-- ==== Proof.PayloadAt.lean ====
/-
  The body's arithmetic read at an index, on the extended reals.  Each matrix product into a zero accumulator is the
  plain sum over its contraction index; a change of float format is the identity; the row maximum and the row sum are
  the fold of max from −∞ and the plain sum over the row; the keepdims column [256] → [256, 1] → [256, 4096] reads its
  row's entry.  So the softmax payload of a query block at (r, k) is `softmaxRow` of that row's scaled scores, and the
  closing payload at (r, d) is the two nested sums of the attended values through the output weight.
-/
import proofs.«177312_j11862699671873_2_alg».proof.Proof.Gen.KernelIdeal.Skeleton
import proofs.«177312_j11862699671873_2_alg».proof.Proof.Attention
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadAt

open Cert.KernelIdeal Cert.KernelIdeal.Gen Cert.Attn
open Idealize.ShloMosaic Idealize.ShloMosaic.TcCoe Idealize.ShloMosaic.ValueIdx

/-! ## The four matrix products -/

theorem projSlab_at_lhs (i : S4096x512.Idx) (q : dot_S4096x512_S512x512_S4096x512_1_0_0_1_n_n.contr.Idx) : (dot_S4096x512_S512x512_S4096x512_1_0_0_1_n_n.lhsIdx i q 0).val = (i 0).val := by
  unfold DotDims.lhsIdx
  rw [dif_neg (show ¬(0 : Fin S4096x512.rank) ∈ dot_S4096x512_S512x512_S4096x512_1_0_0_1_n_n.lhsBatch by decide), dif_pos (show (0 : Fin S4096x512.rank) ∈ dot_S4096x512_S512x512_S4096x512_1_0_0_1_n_n.lhsNonContracting by decide)]
  rfl
theorem projSlab_at_rhs (i : S4096x512.Idx) (q : dot_S4096x512_S512x512_S4096x512_1_0_0_1_n_n.contr.Idx) : (dot_S4096x512_S512x512_S4096x512_1_0_0_1_n_n.rhsIdx i q 1).val = (i 1).val := by
  unfold DotDims.rhsIdx
  rw [dif_neg (show ¬(1 : Fin S512x512.rank) ∈ dot_S4096x512_S512x512_S4096x512_1_0_0_1_n_n.rhsBatch by decide), dif_pos (show (1 : Fin S512x512.rank) ∈ dot_S4096x512_S512x512_S4096x512_1_0_0_1_n_n.rhsNonContracting by decide)]
  rfl
theorem projSlab_at (l : FVec Ideal S4096x512 .bf16) (r : FVec Ideal S512x512 .bf16) (i : Fin 4096) (j : Fin 512) :
    matmul dot_S4096x512_S512x512_S4096x512_1_0_0_1_n_n none l r (constant (F := Ideal) S4096x512 .f32 0x00000000#32) (ix2 i j)
      = ∑ k : Fin 512, l (ix2 i k) * r (ix2 k j) := by
  simp only [matmul]
  rw [Ideal.matmul_constant_zero_apply, ← Equiv.sum_comp (contrEquiv1 dot_S4096x512_S512x512_S4096x512_1_0_0_1_n_n 512 rfl rfl).symm]
  refine Finset.sum_congr rfl fun k _ => ?_
  have hk := contrEquiv1_symm_val dot_S4096x512_S512x512_S4096x512_1_0_0_1_n_n 512 rfl rfl k
  have el : dot_S4096x512_S512x512_S4096x512_1_0_0_1_n_n.lhsIdx (ix2 i j) ((contrEquiv1 dot_S4096x512_S512x512_S4096x512_1_0_0_1_n_n 512 rfl rfl).symm k) = ix2 i k := funext fun a => Fin.ext (by
    match a with
    | ⟨0, _⟩ => exact projSlab_at_lhs _ _
    | ⟨1, _⟩ => exact (dot_S4096x512_S512x512_S4096x512_1_0_0_1_n_n.lhsIdx_val_of_single rfl _ _).trans hk)
  have er : dot_S4096x512_S512x512_S4096x512_1_0_0_1_n_n.rhsIdx (ix2 i j) ((contrEquiv1 dot_S4096x512_S512x512_S4096x512_1_0_0_1_n_n 512 rfl rfl).symm k) = ix2 k j := funext fun a => Fin.ext (by
    match a with
    | ⟨0, _⟩ => exact (dot_S4096x512_S512x512_S4096x512_1_0_0_1_n_n.rhsIdx_val_of_single rfl _ _).trans hk
    | ⟨1, _⟩ => exact projSlab_at_rhs _ _)
  rw [el, er]

theorem projTile_at_lhs (i : S256x512.Idx) (q : dot_S256x512_S512x512_S256x512_1_0_0_1_n_n.contr.Idx) : (dot_S256x512_S512x512_S256x512_1_0_0_1_n_n.lhsIdx i q 0).val = (i 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl
theorem projTile_at_rhs (i : S256x512.Idx) (q : dot_S256x512_S512x512_S256x512_1_0_0_1_n_n.contr.Idx) : (dot_S256x512_S512x512_S256x512_1_0_0_1_n_n.rhsIdx i q 1).val = (i 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl
theorem projTile_at (l : FVec Ideal S256x512 .bf16) (r : FVec Ideal S512x512 .bf16) (i : Fin 256) (j : Fin 512) :
    matmul dot_S256x512_S512x512_S256x512_1_0_0_1_n_n none l r (constant (F := Ideal) S256x512 .f32 0x00000000#32) (ix2 i j)
      = ∑ k : Fin 512, l (ix2 i k) * r (ix2 k j) := by
  simp only [matmul]
  rw [Ideal.matmul_constant_zero_apply, ← Equiv.sum_comp (contrEquiv1 dot_S256x512_S512x512_S256x512_1_0_0_1_n_n 512 rfl rfl).symm]
  refine Finset.sum_congr rfl fun k _ => ?_
  have hk := contrEquiv1_symm_val dot_S256x512_S512x512_S256x512_1_0_0_1_n_n 512 rfl rfl k
  have el : dot_S256x512_S512x512_S256x512_1_0_0_1_n_n.lhsIdx (ix2 i j) ((contrEquiv1 dot_S256x512_S512x512_S256x512_1_0_0_1_n_n 512 rfl rfl).symm k) = ix2 i k := funext fun a => Fin.ext (by
    match a with
    | ⟨0, _⟩ => exact projTile_at_lhs _ _
    | ⟨1, _⟩ => exact (dot_S256x512_S512x512_S256x512_1_0_0_1_n_n.lhsIdx_val_of_single rfl _ _).trans hk)
  have er : dot_S256x512_S512x512_S256x512_1_0_0_1_n_n.rhsIdx (ix2 i j) ((contrEquiv1 dot_S256x512_S512x512_S256x512_1_0_0_1_n_n 512 rfl rfl).symm k) = ix2 k j := funext fun a => Fin.ext (by
    match a with
    | ⟨0, _⟩ => exact (dot_S256x512_S512x512_S256x512_1_0_0_1_n_n.rhsIdx_val_of_single rfl _ _).trans hk
    | ⟨1, _⟩ => exact projTile_at_rhs _ _)
  rw [el, er]

theorem scoreTile_at_lhs (i : S256x4096.Idx) (q : dot_S256x512_S4096x512_S256x4096_1_1_0_0_n_n.contr.Idx) : (dot_S256x512_S4096x512_S256x4096_1_1_0_0_n_n.lhsIdx i q 0).val = (i 0).val := by
  unfold DotDims.lhsIdx
  rw [dif_neg (show ¬(0 : Fin S256x512.rank) ∈ dot_S256x512_S4096x512_S256x4096_1_1_0_0_n_n.lhsBatch by decide), dif_pos (show (0 : Fin S256x512.rank) ∈ dot_S256x512_S4096x512_S256x4096_1_1_0_0_n_n.lhsNonContracting by decide)]
  rfl
theorem scoreTile_at_rhs (i : S256x4096.Idx) (q : dot_S256x512_S4096x512_S256x4096_1_1_0_0_n_n.contr.Idx) : (dot_S256x512_S4096x512_S256x4096_1_1_0_0_n_n.rhsIdx i q 0).val = (i 1).val := by
  unfold DotDims.rhsIdx
  rw [dif_neg (show ¬(0 : Fin S4096x512.rank) ∈ dot_S256x512_S4096x512_S256x4096_1_1_0_0_n_n.rhsBatch by decide), dif_pos (show (0 : Fin S4096x512.rank) ∈ dot_S256x512_S4096x512_S256x4096_1_1_0_0_n_n.rhsNonContracting by decide)]
  rfl
theorem scoreTile_at (l : FVec Ideal S256x512 .f32) (r : FVec Ideal S4096x512 .f32) (i : Fin 256) (j : Fin 4096) :
    matmul dot_S256x512_S4096x512_S256x4096_1_1_0_0_n_n (some .fp32) l r (constant (F := Ideal) S256x4096 .f32 0x00000000#32) (ix2 i j)
      = ∑ k : Fin 512, l (ix2 i k) * r (ix2 j k) := by
  simp only [matmul]
  rw [Ideal.matmul_constant_zero_apply, ← Equiv.sum_comp (contrEquiv1 dot_S256x512_S4096x512_S256x4096_1_1_0_0_n_n 512 rfl rfl).symm]
  refine Finset.sum_congr rfl fun k _ => ?_
  have hk := contrEquiv1_symm_val dot_S256x512_S4096x512_S256x4096_1_1_0_0_n_n 512 rfl rfl k
  have el : dot_S256x512_S4096x512_S256x4096_1_1_0_0_n_n.lhsIdx (ix2 i j) ((contrEquiv1 dot_S256x512_S4096x512_S256x4096_1_1_0_0_n_n 512 rfl rfl).symm k) = ix2 i k := funext fun a => Fin.ext (by
    match a with
    | ⟨0, _⟩ => exact scoreTile_at_lhs _ _
    | ⟨1, _⟩ => exact (dot_S256x512_S4096x512_S256x4096_1_1_0_0_n_n.lhsIdx_val_of_single rfl _ _).trans hk)
  have er : dot_S256x512_S4096x512_S256x4096_1_1_0_0_n_n.rhsIdx (ix2 i j) ((contrEquiv1 dot_S256x512_S4096x512_S256x4096_1_1_0_0_n_n 512 rfl rfl).symm k) = ix2 j k := funext fun a => Fin.ext (by
    match a with
    | ⟨0, _⟩ => exact scoreTile_at_rhs _ _
    | ⟨1, _⟩ => exact (dot_S256x512_S4096x512_S256x4096_1_1_0_0_n_n.rhsIdx_val_of_single rfl _ _).trans hk)
  rw [el, er]

theorem mixTile_at_lhs (i : S256x512.Idx) (q : dot_S256x4096_S4096x512_S256x512_1_0_0_1_n_n.contr.Idx) : (dot_S256x4096_S4096x512_S256x512_1_0_0_1_n_n.lhsIdx i q 0).val = (i 0).val := by
  unfold DotDims.lhsIdx
  rw [dif_neg (show ¬(0 : Fin S256x4096.rank) ∈ dot_S256x4096_S4096x512_S256x512_1_0_0_1_n_n.lhsBatch by decide), dif_pos (show (0 : Fin S256x4096.rank) ∈ dot_S256x4096_S4096x512_S256x512_1_0_0_1_n_n.lhsNonContracting by decide)]
  rfl
theorem mixTile_at_rhs (i : S256x512.Idx) (q : dot_S256x4096_S4096x512_S256x512_1_0_0_1_n_n.contr.Idx) : (dot_S256x4096_S4096x512_S256x512_1_0_0_1_n_n.rhsIdx i q 1).val = (i 1).val := by
  unfold DotDims.rhsIdx
  rw [dif_neg (show ¬(1 : Fin S4096x512.rank) ∈ dot_S256x4096_S4096x512_S256x512_1_0_0_1_n_n.rhsBatch by decide), dif_pos (show (1 : Fin S4096x512.rank) ∈ dot_S256x4096_S4096x512_S256x512_1_0_0_1_n_n.rhsNonContracting by decide)]
  rfl
theorem mixTile_at (l : FVec Ideal S256x4096 .bf16) (r : FVec Ideal S4096x512 .bf16) (i : Fin 256) (j : Fin 512) :
    matmul dot_S256x4096_S4096x512_S256x512_1_0_0_1_n_n none l r (constant (F := Ideal) S256x512 .f32 0x00000000#32) (ix2 i j)
      = ∑ k : Fin 4096, l (ix2 i k) * r (ix2 k j) := by
  simp only [matmul]
  rw [Ideal.matmul_constant_zero_apply, ← Equiv.sum_comp (contrEquiv1 dot_S256x4096_S4096x512_S256x512_1_0_0_1_n_n 4096 rfl rfl).symm]
  refine Finset.sum_congr rfl fun k _ => ?_
  have hk := contrEquiv1_symm_val dot_S256x4096_S4096x512_S256x512_1_0_0_1_n_n 4096 rfl rfl k
  have el : dot_S256x4096_S4096x512_S256x512_1_0_0_1_n_n.lhsIdx (ix2 i j) ((contrEquiv1 dot_S256x4096_S4096x512_S256x512_1_0_0_1_n_n 4096 rfl rfl).symm k) = ix2 i k := funext fun a => Fin.ext (by
    match a with
    | ⟨0, _⟩ => exact mixTile_at_lhs _ _
    | ⟨1, _⟩ => exact (dot_S256x4096_S4096x512_S256x512_1_0_0_1_n_n.lhsIdx_val_of_single rfl _ _).trans hk)
  have er : dot_S256x4096_S4096x512_S256x512_1_0_0_1_n_n.rhsIdx (ix2 i j) ((contrEquiv1 dot_S256x4096_S4096x512_S256x512_1_0_0_1_n_n 4096 rfl rfl).symm k) = ix2 k j := funext fun a => Fin.ext (by
    match a with
    | ⟨0, _⟩ => exact (dot_S256x4096_S4096x512_S256x512_1_0_0_1_n_n.rhsIdx_val_of_single rfl _ _).trans hk
    | ⟨1, _⟩ => exact mixTile_at_rhs _ _)
  rw [el, er]

/-! ## The keepdims column and the two row reductions -/

/-- A [256] vector cast to a column and broadcast along the row reads, at (r, k), entry r. -/
theorem col_at {α : Type} (v : S256.Idx → α) (h1 : S256.ShapeCasts S256x1) (h2 : S256x1.Broadcasts S256x4096)
    (r : Fin 256) (k : Fin 4096) :
    broadcastTo S256x4096 (shapeCast S256x1 v h1) h2 (ix2 r k) = v (ix1 r) := by
  refine (broadcastTo_apply _ h2 (ix2 r k) (ix2 r (0 : Fin 1)) fun ax => ?_).trans ?_
  · match ax with
    | ⟨0, _⟩ => show r.val = if (256 : Nat) = 1 then 0 else r.val; rw [if_neg (by decide)]
    | ⟨1, _⟩ => show 0 = if (1 : Nat) = 1 then 0 else k.val; rw [if_pos rfl]
  · exact shapeCast_apply v h1 _ _ (by
      rw [Shape.rowMajor_val_one, Shape.rowMajor_val_two]; show r.val = r.val * 1 + 0; omega)

/-- Putting the key coordinate back into a reduced row index r gives (r, k). -/
theorem lift_row (r : Fin 256) (k : Fin (S256x4096.size 1)) :
    reduces_S256x4096_S256.lift (ix1 r) k = ix2 r (⟨k.val, k.isLt⟩ : Fin 4096) := by
  funext a; apply Fin.ext
  match a with
  | ⟨0, _⟩ => rfl
  | ⟨1, _⟩ => rfl

/-- The lane maximum of a [256, 4096] tile at row r is the fold of max from −∞ over the row. -/
theorem rowMax_at (src : FVec Ideal S256x4096 .f32) (hφ : FKind.Formats .f32)
    (hacc : (0xFF800000#32 : BitVec 32) = FKind.maximumf.neutral .f32 hφ) (r : Fin 256) :
    multiReduction (F := Ideal) .maximumf [1] S256 src 0xFF800000#32 reduces_S256x4096_S256 hφ hacc (ix1 r)
      = rowMax (fun k => src (ix2 r k)) := by
  refine (Ideal.multiReduction_maximumf_single src _ reduces_S256x4096_S256 hφ hacc (ix1 r)).trans ?_
  unfold rowMax
  have hf : (src ∘ reduces_S256x4096_S256.lift (ix1 r)) = fun k : Fin 4096 => src (ix2 r k) :=
    funext fun k => congrArg src (lift_row r k)
  rw [hf]
  rfl

/-- The lane sum of a [256, 4096] tile at row r is the sum over the row. -/
theorem rowSum_at (src : FVec Ideal S256x4096 .f32) (hφ : FKind.Formats .f32)
    (hacc : (0x00000000#32 : BitVec 32) = FKind.add.neutral .f32 hφ) (r : Fin 256) :
    multiReduction (F := Ideal) .add [1] S256 src 0x00000000#32 reduces_S256x4096_S256 hφ hacc (ix1 r)
      = ∑ k : Fin 4096, src (ix2 r k) := by
  refine (Ideal.multiReduction_add_single src _ reduces_S256x4096_S256 hφ hacc (ix1 r)).trans ?_
  exact Finset.sum_congr rfl fun k _ => congrArg src (lift_row r k)

/-! ## The softmax of a tile of scores -/

/-- The body's softmax of a [256, 4096] tile, as it is printed: row maximum, subtraction, exponential, row sum, quotient. -/
def softmaxTile (v12 : FVec Ideal S256x4096 .f32) : FVec Ideal S256x4096 .f32 :=
  have v13 : FVec Ideal S256 .f32 := multiReduction .maximumf [1] S256 v12 0xFF800000#32 reduces_S256x4096_S256 (.inl rfl) rfl
  have v14 : FVec Ideal S256x1 .f32 := shapeCast S256x1 v13 shapeCasts_S256_S256x1
  have v15 : FVec Ideal S256x4096 .f32 := broadcastTo S256x4096 v14 broadcasts_S256x1_S256x4096
  have v16 : FVec Ideal S256x4096 .f32 := subf v12 v15
  have v17 : FVec Ideal S256x4096 .f32 := exp v16
  have v18 : FVec Ideal S256 .f32 := multiReduction .add [1] S256 v17 0x00000000#32 reduces_S256x4096_S256 (.inl rfl) rfl
  have v19 : FVec Ideal S256x1 .f32 := shapeCast S256x1 v18 shapeCasts_S256_S256x1
  have v20 : FVec Ideal S256x4096 .f32 := broadcastTo S256x4096 v19 broadcasts_S256x1_S256x4096
  have v21 : FVec Ideal S256x4096 .f32 := divf v17 v20
  v21

theorem softmaxTile_at (s : FVec Ideal S256x4096 .f32) (r : Fin 256) (k : Fin 4096) :
    softmaxTile s (ix2 r k) = softmaxRow (fun k' => s (ix2 r k')) k := by
  have hmx : ∀ (hφ : FKind.Formats .f32) (hacc : (0xFF800000#32 : BitVec 32) = FKind.maximumf.neutral .f32 hφ) (k' : Fin 4096),
      (broadcastTo S256x4096 (shapeCast S256x1
        (multiReduction (F := Ideal) .maximumf [1] S256 s 0xFF800000#32 reduces_S256x4096_S256 hφ hacc)
        shapeCasts_S256_S256x1) broadcasts_S256x1_S256x4096) (ix2 r k') = rowMax (fun k'' => s (ix2 r k'')) :=
    fun hφ hacc k' => (col_at _ _ _ r k').trans (rowMax_at s hφ hacc r)
  have hex : ∀ (hφ : FKind.Formats .f32) (hacc : (0xFF800000#32 : BitVec 32) = FKind.maximumf.neutral .f32 hφ) (k' : Fin 4096),
      (exp (subf s (broadcastTo S256x4096 (shapeCast S256x1
        (multiReduction (F := Ideal) .maximumf [1] S256 s 0xFF800000#32 reduces_S256x4096_S256 hφ hacc)
        shapeCasts_S256_S256x1) broadcasts_S256x1_S256x4096))) (ix2 r k')
      = Ideal.exp (s (ix2 r k') - rowMax (fun k'' => s (ix2 r k''))) :=
    fun hφ hacc k' => congrArg (fun z => Ideal.exp (s (ix2 r k') - z)) (hmx hφ hacc k')
  unfold softmaxTile softmaxRow
  dsimp only
  show Ideal.div _ _ = _
  refine congrArg₂ Ideal.div (hex _ _ k) ?_
  refine (col_at _ _ _ r k).trans ?_
  refine (rowSum_at _ _ _ r).trans ?_
  exact Finset.sum_congr rfl fun k' _ => hex _ _ k'

/-! ## The payloads -/

/-- The scaled scores of a query block against the resident key projection, as the body prints them. -/
def tileScores (v3 : Vec Ideal S1x256x512 .f32) (v6 : Vec Ideal S512x512 .bf16) (v9 : Vec Ideal S4096x512 .f32) :
    FVec Ideal S256x4096 .f32 :=
  have v4 : FVec Ideal S256x512 .f32 := shapeCast S256x512 v3 shapeCasts_S1x256x512_S256x512
  have v5 : FVec Ideal S256x512 .bf16 := truncf .bf16 v4 bitsLt_bf16_f32
  have v7 : FVec Ideal S512x512 .bf16 := shapeCast S512x512 v6 shapeCasts_S512x512_S512x512
  have cst : FVec Ideal S256x512 .f32 := constant S256x512 .f32 0x00000000#32
  have v8 : FVec Ideal S256x512 .f32 := matmul dot_S256x512_S512x512_S256x512_1_0_0_1_n_n none v5 v7 cst
  have cst_7 : FVec Ideal S256x4096 .f32 := constant S256x4096 .f32 0x00000000#32
  have v10 : FVec Ideal S256x4096 .f32 := matmul (φ₂ := .f32) dot_S256x512_S4096x512_S256x4096_1_1_0_0_n_n (some .fp32) v8 v9 cst_7
  have cst_8 : Ideal .f32 := Scalar.ofBits .f32 0x41000000#32
  have v11 : FVec Ideal S256x4096 .f32 := broadcast S256x4096 cst_8
  have v12 : FVec Ideal S256x4096 .f32 := divf v10 v11
  v12

set_option maxRecDepth 65536 in
theorem softmaxPayload_eq (v3 : Vec Ideal S1x256x512 .f32) (v6 : Vec Ideal S512x512 .bf16) (v9 : Vec Ideal S4096x512 .f32) :
    k0_pay4 v3 v6 v9 = softmaxTile (tileScores v3 v6 v9) := rfl

/-- A query row's projection through the query weight block. -/
abbrev qrow (v3 : Vec Ideal S1x256x512 .f32) (v6 : Vec Ideal S512x512 .bf16) (r : Fin 256) (e : Fin 512) : EReal :=
  ∑ d : Fin 512, v3 (ix3 (0 : Fin 1) r d) * v6 (ix2 d e)

theorem tileScores_at (v3 : Vec Ideal S1x256x512 .f32) (v6 : Vec Ideal S512x512 .bf16) (v9 : Vec Ideal S4096x512 .f32)
    (r : Fin 256) (k : Fin 4096) :
    tileScores v3 v6 v9 (ix2 r k) = scoreOf (qrow v3 v6 r) (fun e => v9 (ix2 k e)) := by
  unfold tileScores scoreOf
  dsimp only
  rw [shapeCast_self]
  show Ideal.div _ cScale = Ideal.div _ cScale
  refine congrArg (fun z => Ideal.div z cScale) ?_
  refine (scoreTile_at _ _ r k).trans ?_
  refine Finset.sum_congr rfl fun e _ => ?_
  refine congrArg (fun z => z * v9 (ix2 k e)) ?_
  refine (projTile_at _ _ r e).trans ?_
  refine Finset.sum_congr rfl fun d _ => ?_
  refine congrArg (fun z => z * v6 (ix2 d e)) ?_
  exact shapeCast_1ab_ab_apply v3 _ r d

/-- The softmax payload at (r, k): the softmax of row r's scaled scores. -/
theorem softmaxPayload_at (v3 : Vec Ideal S1x256x512 .f32) (v6 : Vec Ideal S512x512 .bf16) (v9 : Vec Ideal S4096x512 .f32)
    (r : Fin 256) (k : Fin 4096) :
    k0_pay4 v3 v6 v9 (ix2 r k) = softmaxRow (fun k' => scoreOf (qrow v3 v6 r) (fun e => v9 (ix2 k' e))) k := by
  rw [softmaxPayload_eq]
  refine (softmaxTile_at _ r k).trans ?_
  exact congrArg (fun f => softmaxRow f k) (funext fun k' => tileScores_at v3 v6 v9 r k')

/-- The attention-weight block's payload at (0, r, k). -/
theorem weightsPayload_at (v3 : Vec Ideal S1x256x512 .f32) (v6 : Vec Ideal S512x512 .bf16) (v9 : Vec Ideal S4096x512 .f32)
    (r : Fin 256) (k : Fin 4096) :
    k0_pay5 v3 v6 v9 (ix3 (0 : Fin 1) r k) = softmaxRow (fun k' => scoreOf (qrow v3 v6 r) (fun e => v9 (ix2 k' e))) k := by
  unfold k0_pay5
  exact (shapeCast_ab_1ab_apply _ _ (0 : Fin 1) r k).trans (softmaxPayload_at v3 v6 v9 r k)

/-- The projection payload of a [4096, 512] slab at (j, e). -/
theorem keyProjPayload_at (v39 : Vec Ideal S4096x512 .f32) (v41 : Vec Ideal S512x512 .bf16) (j : Fin 4096) (e : Fin 512) :
    k0_pay2 v39 v41 (ix2 j e) = ∑ d : Fin 512, v39 (ix2 j d) * v41 (ix2 d e) := by
  unfold k0_pay2
  simp only [shapeCast_self]
  exact (projSlab_at _ _ j e).trans rfl

theorem valProjPayload_at (v51 : Vec Ideal S4096x512 .f32) (v53 : Vec Ideal S512x512 .bf16) (j : Fin 4096) (e : Fin 512) :
    k0_pay3 v51 v53 (ix2 j e) = ∑ d : Fin 512, v51 (ix2 j d) * v53 (ix2 d e) := by
  unfold k0_pay3
  simp only [shapeCast_self]
  exact (projSlab_at _ _ j e).trans rfl

/-- The result block's payload at (0, r, d). -/
theorem resultPayload_at (v3 : Vec Ideal S1x256x512 .f32) (v6 : Vec Ideal S512x512 .bf16) (v9 : Vec Ideal S4096x512 .f32)
    (v26 : Vec Ideal S4096x512 .bf16) (v29 : Vec Ideal S512x512 .bf16) (r : Fin 256) (d : Fin 512) :
    k0_pay1 (k0_pay6 v3 v6 v9 v26 v29) (ix3 (0 : Fin 1) r d)
      = ∑ e : Fin 512, (∑ k : Fin 4096, k0_pay4 v3 v6 v9 (ix2 r k) * v26 (ix2 k e)) * v29 (ix2 e d) := by
  unfold k0_pay1
  refine (shapeCast_ab_1ab_apply _ _ (0 : Fin 1) r d).trans ?_
  unfold k0_pay6
  simp only [shapeCast_self]
  refine (projTile_at _ _ r d).trans ?_
  refine Finset.sum_congr rfl fun e _ => ?_
  refine congrArg (fun z => z * v29 (ix2 e d)) ?_
  exact (mixTile_at _ _ r e).trans rfl

end Cert.KernelIdeal.PayloadAt

end
-- ==== Proof.PointValues.lean ====
/-
  What the two resident scratch buffers and the two output buffers hold after each grid point, in terms of the
  argument arrays.

  The grid is (batch, query tile) = (t / 16, t mod 16) in the order the points run.  The first point of a batch
  projects the batch's K and V slabs; every later point of the batch finds both projections where the point before
  left them.  So after ANY point t the resident key projection at (j, e) is the linear map of K by WK at
  (t / 16, j, e), and likewise for V: an induction over the points, never an enumeration.  The weights reach the body
  transposed (the host transposes each before the call), so a weight block at (d, e) is the argument at (e, d).
-/
import proofs.«177312_j11862699671873_2_alg».proof.Proof.BodyValues
import proofs.«177312_j11862699671873_2_alg».proof.Proof.PayloadAt
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.Tactic
open Idealize.ShloMosaic.Pipeline (Dat)

namespace Cert.KernelIdeal.Resident

open Cert.KernelIdeal Cert.KernelIdeal.Gen Cert.KernelIdeal.Pieces Cert.KernelIdeal.PayloadAt Cert.Attn
open Idealize.ShloMosaic.ValueIdx

variable (m : (ℓ : Loc nD τ sig) → Buf (Elt Ideal) ℓ)

/-- The seven argument arrays as launched, as arrays of extended reals. -/
abbrev arr0 (c : Dev nD) : Act := (m ((c : Thread nD τ).loc main_arg0) : S4x4096x512.Idx → Elt Ideal .f32)
abbrev arr1 (c : Dev nD) : Act := (m ((c : Thread nD τ).loc main_arg1) : S4x4096x512.Idx → Elt Ideal .f32)
abbrev arr2 (c : Dev nD) : Act := (m ((c : Thread nD τ).loc main_arg2) : S4x4096x512.Idx → Elt Ideal .f32)
abbrev arr3 (c : Dev nD) : Wgt := (m ((c : Thread nD τ).loc main_arg3) : S512x512.Idx → Elt Ideal .f32)
abbrev arr4 (c : Dev nD) : Wgt := (m ((c : Thread nD τ).loc main_arg4) : S512x512.Idx → Elt Ideal .f32)
abbrev arr5 (c : Dev nD) : Wgt := (m ((c : Thread nD τ).loc main_arg5) : S512x512.Idx → Elt Ideal .f32)
abbrev arr6 (c : Dev nD) : Wgt := (m ((c : Thread nD τ).loc main_arg6) : S512x512.Idx → Elt Ideal .f32)

/-- A grid point's two coordinates: the batch and the query tile. -/
theorem coords_facts : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-- The printed index maps over the grid: the query block and both output blocks sit at (batch, tile, 0); the four
    weight blocks never move. -/
theorem index_facts : ∀ t : Fin cfg0.N, win0_0.index t (0 : Fin 3) = t.val / 16 ∧ win0_0.index t (1 : Fin 3) = t.val % 16 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val / 16 ∧ win0_5.index t (1 : Fin 3) = t.val % 16 ∧ win0_5.index t (2 : Fin 3) = 0
    ∧ win0_6.index t (0 : Fin 3) = t.val / 16 ∧ win0_6.index t (1 : Fin 3) = t.val % 16 ∧ win0_6.index t (2 : Fin 3) = 0 :=
  (by decide +kernel : ∀ t : Fin grid0.N, _)

/-! ## The weights as the region finds them -/

/-- The query weight as the region finds it: the transposed argument (the change of format is the identity). -/
theorem wq_at (c : Dev nD) (d e : Fin 512) :
    (V m c main_v1 : S512x512.Idx → Elt Ideal .bf16) (ix2 d e) = arr3 m c (ix2 e d) := by
  have hv : @Eq (S512x512.Idx → Elt Ideal .bf16) (V m c main_v1)
      (truncf (F := Ideal) .bf16 (transpose S512x512 [1, 0] (m ((c : Thread nD τ).loc main_arg3)) transposes_S512x512_S512x512_1_0) bitsLt_bf16_f32) := by
    dsimp only [Gen.V, Gen.hostOps0]; after_results
  rw [hv]
  exact transpose_ix2_apply _ _ d e

/-- The key weight likewise. -/
theorem wk_at (c : Dev nD) (d e : Fin 512) :
    (V m c main_v3 : S512x512.Idx → Elt Ideal .bf16) (ix2 d e) = arr4 m c (ix2 e d) := by
  have hv : @Eq (S512x512.Idx → Elt Ideal .bf16) (V m c main_v3)
      (truncf (F := Ideal) .bf16 (transpose S512x512 [1, 0] (m ((c : Thread nD τ).loc main_arg4)) transposes_S512x512_S512x512_1_0) bitsLt_bf16_f32) := by
    dsimp only [Gen.V, Gen.hostOps0]; after_results
  rw [hv]
  exact transpose_ix2_apply _ _ d e

/-- The value weight likewise. -/
theorem wv_at (c : Dev nD) (d e : Fin 512) :
    (V m c main_v5 : S512x512.Idx → Elt Ideal .bf16) (ix2 d e) = arr5 m c (ix2 e d) := by
  have hv : @Eq (S512x512.Idx → Elt Ideal .bf16) (V m c main_v5)
      (truncf (F := Ideal) .bf16 (transpose S512x512 [1, 0] (m ((c : Thread nD τ).loc main_arg5)) transposes_S512x512_S512x512_1_0) bitsLt_bf16_f32) := by
    dsimp only [Gen.V, Gen.hostOps0]; after_results
  rw [hv]
  exact transpose_ix2_apply _ _ d e

/-- The output weight likewise. -/
theorem wo_at (c : Dev nD) (d e : Fin 512) :
    (V m c main_v7 : S512x512.Idx → Elt Ideal .bf16) (ix2 d e) = arr6 m c (ix2 e d) := by
  have hv : @Eq (S512x512.Idx → Elt Ideal .bf16) (V m c main_v7)
      (truncf (F := Ideal) .bf16 (transpose S512x512 [1, 0] (m ((c : Thread nD τ).loc main_arg6)) transposes_S512x512_S512x512_1_0) bitsLt_bf16_f32) := by
    dsimp only [Gen.V, Gen.hostOps0]; after_results
  rw [hv]
  exact transpose_ix2_apply _ _ d e

/-! ## The blocks a point is handed -/

/-- The query block at a point: rows 256·(t mod 16) … of batch t / 16. -/
theorem qblk_at (c : Dev nD) (t : Fin cfg0.N) (b : Fin 4) (q : Fin 4096) (r : Fin 256) (d : Fin 512)
    (hb : b.val = t.val / 16) (hq : q.val = (t.val % 16) * 256 + r.val) :
    (iblk m c 0 t : Vec Ideal S1x256x512 .f32) (ix3 (0 : Fin 1) r d) = arr0 m c (ix3 b q d) := by
  obtain ⟨e0, e1, e2, -⟩ := index_facts t
  unfold iblk
  rw [View.read_apply]
  show V m c main_arg0 _ = m (c.tc.loc main_arg0) _
  rw [V_main_arg0]
  refine congrArg _ (funext fun a => Fin.ext ?_)
  match a with
  | ⟨0, _⟩ => show win0_0.index t (0 : Fin 3) * 1 + 1 * 0 = b.val; omega
  | ⟨1, _⟩ => show win0_0.index t (1 : Fin 3) * 256 + 1 * r.val = q.val; omega
  | ⟨2, _⟩ => show win0_0.index t (2 : Fin 3) * 512 + 1 * d.val = d.val; omega

theorem wblk1_at (c : Dev nD) (t : Fin cfg0.N) (d e : Fin 512) :
    (iblk m c 1 t : Vec Ideal S512x512 .bf16) (ix2 d e) = arr3 m c (ix2 e d) := by
  obtain ⟨-, -, -, e0, e1, -⟩ := index_facts t
  refine Eq.trans ?_ (wq_at m c d e)
  unfold iblk
  rw [View.read_apply]
  show V m c main_v1 _ = V m c main_v1 _
  refine congrArg _ (funext fun a => Fin.ext ?_)
  match a with
  | ⟨0, _⟩ => show win0_1.index t (0 : Fin 2) * 512 + 1 * d.val = d.val; omega
  | ⟨1, _⟩ => show win0_1.index t (1 : Fin 2) * 512 + 1 * e.val = e.val; omega

theorem wblk2_at (c : Dev nD) (t : Fin cfg0.N) (d e : Fin 512) :
    (iblk m c 2 t : Vec Ideal S512x512 .bf16) (ix2 d e) = arr4 m c (ix2 e d) := by
  obtain ⟨-, -, -, -, -, e0, e1, -⟩ := index_facts t
  refine Eq.trans ?_ (wk_at m c d e)
  unfold iblk
  rw [View.read_apply]
  show V m c main_v3 _ = V m c main_v3 _
  refine congrArg _ (funext fun a => Fin.ext ?_)
  match a with
  | ⟨0, _⟩ => show win0_2.index t (0 : Fin 2) * 512 + 1 * d.val = d.val; omega
  | ⟨1, _⟩ => show win0_2.index t (1 : Fin 2) * 512 + 1 * e.val = e.val; omega

theorem wblk3_at (c : Dev nD) (t : Fin cfg0.N) (d e : Fin 512) :
    (iblk m c 3 t : Vec Ideal S512x512 .bf16) (ix2 d e) = arr5 m c (ix2 e d) := by
  obtain ⟨-, -, -, -, -, -, -, e0, e1, -⟩ := index_facts t
  refine Eq.trans ?_ (wv_at m c d e)
  unfold iblk
  rw [View.read_apply]
  show V m c main_v5 _ = V m c main_v5 _
  refine congrArg _ (funext fun a => Fin.ext ?_)
  match a with
  | ⟨0, _⟩ => show win0_3.index t (0 : Fin 2) * 512 + 1 * d.val = d.val; omega
  | ⟨1, _⟩ => show win0_3.index t (1 : Fin 2) * 512 + 1 * e.val = e.val; omega

theorem wblk4_at (c : Dev nD) (t : Fin cfg0.N) (d e : Fin 512) :
    (iblk m c 4 t : Vec Ideal S512x512 .bf16) (ix2 d e) = arr6 m c (ix2 e d) := by
  obtain ⟨-, -, -, -, -, -, -, -, -, e0, e1, -⟩ := index_facts t
  refine Eq.trans ?_ (wo_at m c d e)
  unfold iblk
  rw [View.read_apply]
  show V m c main_v7 _ = V m c main_v7 _
  refine congrArg _ (funext fun a => Fin.ext ?_)
  match a with
  | ⟨0, _⟩ => show win0_4.index t (0 : Fin 2) * 512 + 1 * d.val = d.val; omega
  | ⟨1, _⟩ => show win0_4.index t (1 : Fin 2) * 512 + 1 * e.val = e.val; omega

/-! ## The slabs the body copies itself -/

theorem slabK_at (c : Dev nD) (i : grid0.Coords) (hc0 : cond0_0 i) (fh : HbBuf0 (F := Ideal) c hbM0_0) (b : Fin 4)
    (hb : b.val = (i 0).val) (j : Fin 4096) (d : Fin 512) :
    slab c i hc0 hbM0_0 fh (ix2 j d) = (fh : S4x4096x512.Idx → Elt Ideal .f32) (ix3 b j d) := by
  have hi : (i 0).val < 4 := (i 0).isLt
  unfold slab
  rw [Memref.read_squeeze_slice hbM0_0 _ (fun _ => rfl) squeezes_S1x4096x512_S4096x512
    (show S1x4096x512.ShapeCasts S4096x512 by decide) fh]
  refine (shapeCast_1ab_ab_apply _ _ j d).trans ?_
  rw [View.readAt_eq_ld]
  show (fh : S4x4096x512.Idx → Elt Ideal .f32)
    ((Rect.unit (s := S4x4096x512) (k0_off1 i) S1x4096x512.size (k0_off1_inb i hc0)).emb (ix3 (0 : Fin 1) j d)) = _
  refine congrArg _ (funext fun a => Fin.ext ?_)
  have hm : (BitVec.ofNat 32 (i 0).val).toNat = (i 0).val := by
    rw [BitVec.toNat_ofNat]; exact Nat.mod_eq_of_lt (by omega)
  match a with
  | ⟨0, _⟩ => show (BitVec.ofNat 32 (i 0).val).toNat + 1 * 0 = b.val; omega
  | ⟨1, _⟩ => show 0 + 1 * j.val = j.val; omega
  | ⟨2, _⟩ => show 0 + 1 * d.val = d.val; omega

theorem slabV_at (c : Dev nD) (i : grid0.Coords) (hc0 : cond0_0 i) (fh : HbBuf0 (F := Ideal) c hbM0_1) (b : Fin 4)
    (hb : b.val = (i 0).val) (j : Fin 4096) (d : Fin 512) :
    slab c i hc0 hbM0_1 fh (ix2 j d) = (fh : S4x4096x512.Idx → Elt Ideal .f32) (ix3 b j d) := by
  have hi : (i 0).val < 4 := (i 0).isLt
  unfold slab
  rw [Memref.read_squeeze_slice hbM0_1 _ (fun _ => rfl) squeezes_S1x4096x512_S4096x512
    (show S1x4096x512.ShapeCasts S4096x512 by decide) fh]
  refine (shapeCast_1ab_ab_apply _ _ j d).trans ?_
  rw [View.readAt_eq_ld]
  show (fh : S4x4096x512.Idx → Elt Ideal .f32)
    ((Rect.unit (s := S4x4096x512) (k0_off1 i) S1x4096x512.size (k0_off1_inb i hc0)).emb (ix3 (0 : Fin 1) j d)) = _
  refine congrArg _ (funext fun a => Fin.ext ?_)
  have hm : (BitVec.ofNat 32 (i 0).val).toNat = (i 0).val := by
    rw [BitVec.toNat_ofNat]; exact Nat.mod_eq_of_lt (by omega)
  match a with
  | ⟨0, _⟩ => show (BitVec.ofNat 32 (i 0).val).toNat + 1 * 0 = b.val; omega
  | ⟨1, _⟩ => show 0 + 1 * j.val = j.val; omega
  | ⟨2, _⟩ => show 0 + 1 * d.val = d.val; omega

/-! ## The resident projections after every point -/

/-- At a first point of a batch the key projection stored is the linear map of K by WK on that batch. -/
theorem first_key (c : Dev nD) (t : Fin cfg0.N) (h0 : t.val % 16 = 0) (b : Fin 4) (hb : b.val = t.val / 16)
    (j : Fin 4096) (e : Fin 512) :
    ((outsAt0 m c t.val t.isLt).2.2.1 : Vec Ideal S4096x512 .f32) (ix2 j e) = lin (arr1 m c) (arr4 m c) b j e := by
  rw [outsAt0_A m c t h0]
  dsimp only
  rw [keyProj_first]
  refine (keyProjPayload_at _ _ j e).trans ?_
  unfold lin
  refine Finset.sum_congr rfl fun d _ => ?_
  refine congrArg₂ (fun x y : EReal => x * y) ?_ (wblk2_at m c t d e)
  refine (slabK_at c (grid0.coords t) _ _ b (hb.trans (coords_facts t).1.symm) j d).trans ?_
  rw [V_main_arg1]

/-- At a first point of a batch the value projection stored is the linear map of V by WV on that batch. -/
theorem first_val (c : Dev nD) (t : Fin cfg0.N) (h0 : t.val % 16 = 0) (b : Fin 4) (hb : b.val = t.val / 16)
    (j : Fin 4096) (e : Fin 512) :
    ((outsAt0 m c t.val t.isLt).2.2.2 : Vec Ideal S4096x512 .bf16) (ix2 j e) = lin (arr2 m c) (arr5 m c) b j e := by
  rw [outsAt0_A m c t h0]
  dsimp only
  rw [valProj_first]
  refine (valProjPayload_at _ _ j e).trans ?_
  unfold lin
  refine Finset.sum_congr rfl fun d _ => ?_
  refine congrArg₂ (fun x y : EReal => x * y) ?_ (wblk3_at m c t d e)
  refine (slabV_at c (grid0.coords t) _ _ b (hb.trans (coords_facts t).1.symm) j d).trans ?_
  rw [V_main_arg2]

/-- After ANY point the resident key projection is the linear map of K by WK on the point's batch. -/
theorem resident_key (c : Dev nD) : ∀ (n : ℕ) (hn : n < cfg0.N) (b : Fin 4) (hb : b.val = n / 16) (j : Fin 4096) (e : Fin 512),
    ((outsAt0 m c n hn).2.2.1 : Vec Ideal S4096x512 .f32) (ix2 j e) = lin (arr1 m c) (arr4 m c) b j e := by
  intro n
  induction n with
  | zero => exact fun hn b hb j e => first_key m c ⟨0, hn⟩ rfl b hb j e
  | succ n ih =>
    intro hn b hb j e
    by_cases h0 : (n + 1) % 16 = 0
    · exact first_key m c ⟨n + 1, hn⟩ h0 b hb j e
    · rw [outsAt0_B m c ⟨n + 1, hn⟩ h0]
      dsimp only
      unfold sout0_B_1
      exact ih _ b (by omega) j e

/-- After ANY point the resident value projection is the linear map of V by WV on the point's batch. -/
theorem resident_val (c : Dev nD) : ∀ (n : ℕ) (hn : n < cfg0.N) (b : Fin 4) (hb : b.val = n / 16) (j : Fin 4096) (e : Fin 512),
    ((outsAt0 m c n hn).2.2.2 : Vec Ideal S4096x512 .bf16) (ix2 j e) = lin (arr2 m c) (arr5 m c) b j e := by
  intro n
  induction n with
  | zero => exact fun hn b hb j e => first_val m c ⟨0, hn⟩ rfl b hb j e
  | succ n ih =>
    intro hn b hb j e
    by_cases h0 : (n + 1) % 16 = 0
    · exact first_val m c ⟨n + 1, hn⟩ h0 b hb j e
    · rw [outsAt0_B m c ⟨n + 1, hn⟩ h0]
      dsimp only
      unfold sout0_B_2
      exact ih _ b (by omega) j e

/-! ## The two output buffers after every point -/

/-- After any point the attention-weight buffer is the softmax payload of the point's query block, the query weight
    and the resident key projection. -/
theorem point_weights (c : Dev nD) (t : Fin cfg0.N) :
    (outsAt0 m c t.val t.isLt).1 = k0_pay5 (iblk m c 0 t) (iblk m c 1 t) (outsAt0 m c t.val t.isLt).2.2.1 := by
  by_cases h0 : t.val % 16 = 0
  · rw [outsAt0_A m c t h0]
    dsimp only
    rw [weights_first, keyProj_first]
  · rw [outsAt0_B m c t h0]
    dsimp only
    unfold sout0_B_1
    rw [weights_later]

/-- After any point the result buffer is the closing payload of the same and of the resident value projection and the
    output weight. -/
theorem point_result (c : Dev nD) (t : Fin cfg0.N) :
    (outsAt0 m c t.val t.isLt).2.1 = k0_pay1 (k0_pay6 (iblk m c 0 t) (iblk m c 1 t) (outsAt0 m c t.val t.isLt).2.2.1
      (outsAt0 m c t.val t.isLt).2.2.2 (iblk m c 4 t)) := by
  by_cases h0 : t.val % 16 = 0
  · rw [outsAt0_A m c t h0]
    dsimp only
    rw [result_first, keyProj_first, valProj_first]
  · rw [outsAt0_B m c t h0]
    dsimp only
    unfold sout0_B_1 sout0_B_2
    rw [result_later]

end Cert.KernelIdeal.Resident

end
-- ==== Proof.KernelIsAttention.lean ====
/-
  The kernel's two result arrays after the whole grid has run are the attention functions of the argument arrays.

  Point t writes back block (t / 16, t mod 16, 0) of each result: the 256 query rows 256·(t mod 16) … of batch t / 16,
  over all keys (the weights) or all channels (the result).  What it writes there is, entry by entry, the softmax of
  those rows' scaled scores, and the attended values through the output map — the payload lemmas over the blocks the
  point was handed and the projections resident in scratch.  The 64 blocks tile both arrays: the index (b, q, ·) is in
  the block of point 16·b + q / 256.
-/
import proofs.«177312_j11862699671873_2_alg».proof.Proof.PointValues
import proofs.«177312_j11862699671873_2_alg».proof.Proof.Gen.KernelIdeal.Value

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.PayloadAt Cert.KernelIdeal.Resident Cert.Attn
open Idealize.ShloMosaic.ValueIdx

variable (m : (ℓ : Loc nD τ sig) → Buf (Elt Ideal) ℓ) (ρ : Dev nD → PrngReg)

/-- The attention weights of the launched arguments, as contents of the weights' result array. -/
abbrev weightsOf (c : Dev nD) : S4x4096x4096.Idx → Elt Ideal .f32 :=
  weightArr (arr0 m c) (arr1 m c) (arr3 m c) (arr4 m c)
/-- The attention output of the launched arguments, as contents of the other result array. -/
abbrev outOf (c : Dev nD) : S4x4096x512.Idx → Elt Ideal .f32 :=
  outArr (arr0 m c) (arr1 m c) (arr2 m c) (arr3 m c) (arr4 m c) (arr5 m c) (arr6 m c)

/-- A query row's projection, from the blocks point t was handed: the linear map of Q by WQ at the row's place. -/
theorem qrow_eq (c : Dev nD) (t : Fin cfg0.N) (b : Fin 4) (q : Fin 4096) (r : Fin 256)
    (hb : b.val = t.val / 16) (hq : q.val = (t.val % 16) * 256 + r.val) :
    qrow (iblk m c 0 t) (iblk m c 1 t) r = lin (arr0 m c) (arr3 m c) b q := by
  funext e
  unfold lin
  exact Finset.sum_congr rfl fun d _ =>
    congrArg₂ (fun x y : EReal => x * y) (qblk_at m c t b q r d hb hq) (wblk1_at m c t d e)

/-- The softmax row point t computes for its query row r is the attention-weight row of (t / 16, 256·(t mod 16) + r). -/
theorem weightRow_eq (c : Dev nD) (t : Fin cfg0.N) (b : Fin 4) (q : Fin 4096) (r : Fin 256)
    (hb : b.val = t.val / 16) (hq : q.val = (t.val % 16) * 256 + r.val) (k : Fin 4096) :
    softmaxRow (fun k' => scoreOf (qrow (iblk m c 0 t) (iblk m c 1 t) r)
        (fun e => ((outsAt0 m c t.val t.isLt).2.2.1 : Vec Ideal S4096x512 .f32) (ix2 k' e))) k
      = weight (arr0 m c) (arr1 m c) (arr3 m c) (arr4 m c) b q k := by
  unfold weight score
  refine congrArg (fun f => softmaxRow f k) (funext fun k' => ?_)
  rw [qrow_eq m c t b q r hb hq]
  exact congrArg (scoreOf _) (funext fun e => resident_key m c t.val t.isLt b hb k' e)

/-! ## The weights' result array -/

/-- What point t writes back to the weights' array is block t of the attention weights. -/
theorem flushedWeights_eq (c : Dev nD) (t : Fin cfg0.N) :
    (dats m 0 c).flushed 5 t = ((cfg0.win 5).blk t).view.read (Elt Ideal) (weightsOf m c) := by
  obtain ⟨-, -, -, -, -, -, -, -, -, -, -, e0, e1, e2, -⟩ := index_facts t
  have hN : t.val < 64 := lt_of_lt_of_eq t.isLt N_0
  rw [Value.flushed5]
  funext y
  obtain ⟨u, r, k, rfl⟩ : ∃ (u : Fin 1) (r : Fin 256) (k : Fin 4096), y = ix3 u r k := ⟨y 0, y 1, y 2, eq_ix3 y⟩
  obtain rfl : u = 0 := Subsingleton.elim _ _
  have hr : r.val < 256 := r.isLt
  rw [View.read_apply]
  show (outsAt0 m c t.val t.isLt).1 (ix3 (0 : Fin 1) r k) = weightsOf m c _
  rw [point_weights]
  refine (weightsPayload_at (iblk m c 0 t) (iblk m c 1 t) _ r k).trans ?_
  refine (weightRow_eq m c t ⟨t.val / 16, by omega⟩ ⟨(t.val % 16) * 256 + r.val, by omega⟩ r rfl rfl k).trans ?_
  show weightsOf m c (ix3 _ _ k) = _
  refine congrArg _ (funext fun a => Fin.ext ?_)
  match a with
  | ⟨0, _⟩ => show t.val / 16 = win0_5.index t (0 : Fin 3) * 1 + 1 * 0; omega
  | ⟨1, _⟩ => show (t.val % 16) * 256 + r.val = win0_5.index t (1 : Fin 3) * 256 + 1 * r.val; omega
  | ⟨2, _⟩ => show k.val = win0_5.index t (2 : Fin 3) * 4096 + 1 * k.val; omega

/-- An index of the weights' array is in point t's block iff each coordinate is in the block's range on its axis. -/
theorem mem_blkWeights (t : Fin cfg0.N) (i : S4x4096x4096.Idx) :
    i ∈ ((cfg0.win 5).blk t).view.set ↔ ∀ a : Fin 3, win0_5.index t a * S1x256x4096.size a ≤ (i a).val
      ∧ (i a).val < win0_5.index t a * S1x256x4096.size a + S1x256x4096.size a := by
  show i ∈ ((View.whole main_v8_0).slice (win0_5.rect t)).set ↔ _
  rw [View.set_slice_whole, Rect.mem_set_unit]
  exact Iff.rfl

/-- The 64 blocks tile the weights' array. -/
theorem coverWeights (i : S4x4096x4096.Idx) :
    ∃ t : Fin cfg0.N, (cfg0.win 5).flush t = true ∧ i ∈ ((cfg0.win 5).blk t).view.set := by
  have h0 : (i 0).val < 4 := (i 0).isLt
  have h1 : (i 1).val < 4096 := (i 1).isLt
  have h2 : (i 2).val < 4096 := (i 2).isLt
  have hN : cfg0.N = 64 := N_0
  have ht : (i 0).val * 16 + (i 1).val / 256 < cfg0.N := by rw [hN]; omega
  obtain ⟨-, -, -, -, -, -, -, -, -, -, -, e0, e1, e2, -⟩ := index_facts ⟨(i 0).val * 16 + (i 1).val / 256, ht⟩
  refine ⟨⟨(i 0).val * 16 + (i 1).val / 256, ht⟩, flush0_5 _, ?_⟩
  rw [mem_blkWeights]
  intro a
  match a with
  | ⟨0, _⟩ =>
    show win0_5.index ⟨(i 0).val * 16 + (i 1).val / 256, ht⟩ (0 : Fin 3) * 1 ≤ (i 0).val
      ∧ (i 0).val < win0_5.index ⟨(i 0).val * 16 + (i 1).val / 256, ht⟩ (0 : Fin 3) * 1 + 1
    dsimp only at e0; omega
  | ⟨1, _⟩ =>
    show win0_5.index ⟨(i 0).val * 16 + (i 1).val / 256, ht⟩ (1 : Fin 3) * 256 ≤ (i 1).val
      ∧ (i 1).val < win0_5.index ⟨(i 0).val * 16 + (i 1).val / 256, ht⟩ (1 : Fin 3) * 256 + 256
    dsimp only at e1; omega
  | ⟨2, _⟩ =>
    show win0_5.index ⟨(i 0).val * 16 + (i 1).val / 256, ht⟩ (2 : Fin 3) * 4096 ≤ (i 2).val
      ∧ (i 2).val < win0_5.index ⟨(i 0).val * 16 + (i 1).val / 256, ht⟩ (2 : Fin 3) * 4096 + 4096
    omega

/-- So the weights' array ends holding the attention weights. -/
theorem finalWeights (c : Dev nD) : (dats m 0 c).arrAt 5 cfg0.N = weightsOf m c :=
  (dats m 0 c).arrAt_eq_of_cover 5 (weightsOf m c) (fun t _ => flushedWeights_eq m c t) coverWeights

/-! ## The other result array -/

/-- What point t writes back to the result array is block t of the attention output. -/
theorem flushedOut_eq (c : Dev nD) (t : Fin cfg0.N) :
    (dats m 0 c).flushed 6 t = ((cfg0.win 6).blk t).view.read (Elt Ideal) (outOf m c) := by
  obtain ⟨-, -, -, -, -, -, -, -, -, -, -, -, -, -, e0, e1, e2⟩ := index_facts t
  have hN : t.val < 64 := lt_of_lt_of_eq t.isLt N_0
  rw [Value.flushed6]
  funext y
  obtain ⟨u, r, d, rfl⟩ : ∃ (u : Fin 1) (r : Fin 256) (d : Fin 512), y = ix3 u r d := ⟨y 0, y 1, y 2, eq_ix3 y⟩
  obtain rfl : u = 0 := Subsingleton.elim _ _
  have hr : r.val < 256 := r.isLt
  rw [View.read_apply]
  show (outsAt0 m c t.val t.isLt).2.1 (ix3 (0 : Fin 1) r d) = outOf m c _
  rw [point_result]
  refine (resultPayload_at (iblk m c 0 t) (iblk m c 1 t) _ _ (iblk m c 4 t) r d).trans ?_
  have hout : (∑ e : Fin 512, (∑ k : Fin 4096, k0_pay4 (iblk m c 0 t) (iblk m c 1 t) (outsAt0 m c t.val t.isLt).2.2.1 (ix2 r k)
        * ((outsAt0 m c t.val t.isLt).2.2.2 : Vec Ideal S4096x512 .bf16) (ix2 k e)) * (iblk m c 4 t : Vec Ideal S512x512 .bf16) (ix2 e d))
      = out (arr0 m c) (arr1 m c) (arr2 m c) (arr3 m c) (arr4 m c) (arr5 m c) (arr6 m c)
          ⟨t.val / 16, by omega⟩ ⟨(t.val % 16) * 256 + r.val, by omega⟩ d := by
    unfold out mix
    refine Finset.sum_congr rfl fun e _ => ?_
    refine congrArg₂ (fun x y : EReal => x * y) ?_ (wblk4_at m c t e d)
    refine Finset.sum_congr rfl fun k _ => ?_
    refine congrArg₂ (fun x y : EReal => x * y) ?_ (resident_val m c t.val t.isLt _ rfl k e)
    exact (softmaxPayload_at (iblk m c 0 t) (iblk m c 1 t) _ r k).trans
      (weightRow_eq m c t ⟨t.val / 16, by omega⟩ ⟨(t.val % 16) * 256 + r.val, by omega⟩ r rfl rfl k)
  refine hout.trans ?_
  show outOf m c (ix3 _ _ d) = _
  refine congrArg _ (funext fun a => Fin.ext ?_)
  match a with
  | ⟨0, _⟩ => show t.val / 16 = win0_6.index t (0 : Fin 3) * 1 + 1 * 0; omega
  | ⟨1, _⟩ => show (t.val % 16) * 256 + r.val = win0_6.index t (1 : Fin 3) * 256 + 1 * r.val; omega
  | ⟨2, _⟩ => show d.val = win0_6.index t (2 : Fin 3) * 512 + 1 * d.val; omega

theorem mem_blkOut (t : Fin cfg0.N) (i : S4x4096x512.Idx) :
    i ∈ ((cfg0.win 6).blk t).view.set ↔ ∀ a : Fin 3, win0_6.index t a * S1x256x512.size a ≤ (i a).val
      ∧ (i a).val < win0_6.index t a * S1x256x512.size a + S1x256x512.size a := by
  show i ∈ ((View.whole main_v8_1).slice (win0_6.rect t)).set ↔ _
  rw [View.set_slice_whole, Rect.mem_set_unit]
  exact Iff.rfl

/-- The 64 blocks tile the result array. -/
theorem coverOut (i : S4x4096x512.Idx) :
    ∃ t : Fin cfg0.N, (cfg0.win 6).flush t = true ∧ i ∈ ((cfg0.win 6).blk t).view.set := by
  have h0 : (i 0).val < 4 := (i 0).isLt
  have h1 : (i 1).val < 4096 := (i 1).isLt
  have h2 : (i 2).val < 512 := (i 2).isLt
  have hN : cfg0.N = 64 := N_0
  have ht : (i 0).val * 16 + (i 1).val / 256 < cfg0.N := by rw [hN]; omega
  obtain ⟨-, -, -, -, -, -, -, -, -, -, -, -, -, -, e0, e1, e2⟩ := index_facts ⟨(i 0).val * 16 + (i 1).val / 256, ht⟩
  refine ⟨⟨(i 0).val * 16 + (i 1).val / 256, ht⟩, flush0_6 _, ?_⟩
  rw [mem_blkOut]
  intro a
  match a with
  | ⟨0, _⟩ =>
    show win0_6.index ⟨(i 0).val * 16 + (i 1).val / 256, ht⟩ (0 : Fin 3) * 1 ≤ (i 0).val
      ∧ (i 0).val < win0_6.index ⟨(i 0).val * 16 + (i 1).val / 256, ht⟩ (0 : Fin 3) * 1 + 1
    dsimp only at e0; omega
  | ⟨1, _⟩ =>
    show win0_6.index ⟨(i 0).val * 16 + (i 1).val / 256, ht⟩ (1 : Fin 3) * 256 ≤ (i 1).val
      ∧ (i 1).val < win0_6.index ⟨(i 0).val * 16 + (i 1).val / 256, ht⟩ (1 : Fin 3) * 256 + 256
    dsimp only at e1; omega
  | ⟨2, _⟩ =>
    show win0_6.index ⟨(i 0).val * 16 + (i 1).val / 256, ht⟩ (2 : Fin 3) * 512 ≤ (i 2).val
      ∧ (i 2).val < win0_6.index ⟨(i 0).val * 16 + (i 1).val / 256, ht⟩ (2 : Fin 3) * 512 + 512
    omega

/-- So the result array ends holding the attention output. -/
theorem finalOut (c : Dev nD) : (dats m 0 c).arrAt 6 cfg0.N = outOf m c :=
  (dats m 0 c).arrAt_eq_of_cover 6 (outOf m c) (fun t _ => flushedOut_eq m c t) coverOut

/-! ## The run, read -/

/-- Every weakly fair execution of the idealized kernel terminates with the two result arrays at the attention
    functions of the launched arguments, the arguments unchanged. -/
theorem run : θ_run defs (onTc (τ := τ) (main (F := Ideal))) ⟨m, fun _ => 0, ρ⟩ fun r => ∀ c : Dev nD,
      r.2.mem ((c : Thread nD τ).loc main_v8_1) = outOf m c
      ∧ r.2.mem ((c : Thread nD τ).loc main_v8_0) = weightsOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).2.1.trans (finalOut m c), (h c).1.trans (finalWeights m c), (h c).2.2⟩)
    (Value.run_blocks m ρ)

end Cert.KernelIdeal.Whole

end
-- ==== Proof.lean ====
/-
  The certificate of a fused single-head attention kernel against its plain reference.

  Both programs compute, for every batch b, query row q, key row k and channel d,
      weight b q k = softmax over k of (∑ e, (Q WQᵀ)[b,q,e] · (K WKᵀ)[b,k,e]) / 8
      out    b q d = ∑ e, (∑ k, weight b q k · (V WVᵀ)[b,k,e]) · WO[d,e]
  (Attention.lean).  The reference computes them with whole-array operations (RefIsAttention.lean).  The kernel walks a
  (batch, query tile) grid: the first tile of a batch copies the batch's K and V out of HBM and leaves their
  projections resident in scratch, every tile projects its 256 query rows, takes the softmax of their scores against
  the resident keys, writes that block of weights, and writes the attended values through the output map
  (BodyValues.lean, PayloadAt.lean, PointValues.lean); the 64 blocks tile the two results (KernelIsAttention.lean).
  On the extended reals a change of float format is the identity and every matrix product is its plain sum, so the two
  sides are the same nested sums and no law of arithmetic is needed to join them; the precondition is not used.
  The ideal pass rewrote nothing, so the idealization conjunct is trivial.
-/
import proofs.«177312_j11862699671873_2_alg».proof.Defs
import proofs.«177312_j11862699671873_2_alg».proof.Proof.Gen.Kernel
import proofs.«177312_j11862699671873_2_alg».proof.Proof.Gen.Kernel.Skeleton
import proofs.«177312_j11862699671873_2_alg».proof.Proof.Gen.Kernel.Launch
import proofs.«177312_j11862699671873_2_alg».proof.Proof.Gen.Kernel.Points
import proofs.«177312_j11862699671873_2_alg».proof.Proof.Gen.Kernel.Frame
import proofs.«177312_j11862699671873_2_alg».proof.Proof.Gen.KernelIdeal
import proofs.«177312_j11862699671873_2_alg».proof.Proof.Gen.KernelIdeal.Skeleton
import proofs.«177312_j11862699671873_2_alg».proof.Proof.Gen.KernelIdeal.Launch
import proofs.«177312_j11862699671873_2_alg».proof.Proof.Gen.KernelIdeal.Points
import proofs.«177312_j11862699671873_2_alg».proof.Proof.Gen.KernelIdeal.Frame
import proofs.«177312_j11862699671873_2_alg».proof.Proof.Gen.ReferenceIdeal
import proofs.«177312_j11862699671873_2_alg».proof.Proof.Gen.Pre_finite_inputs
import proofs.«177312_j11862699671873_2_alg».proof.Proof.Gen.KernelIdeal.Value
import proofs.«177312_j11862699671873_2_alg».proof.Proof.Gen.ReferenceIdeal.Run
import proofs.«177312_j11862699671873_2_alg».proof.Proof.Gen.ReferenceIdeal.Read
import proofs.«177312_j11862699671873_2_alg».proof.Proof.RefIsAttention
import proofs.«177312_j11862699671873_2_alg».proof.Proof.KernelIsAttention
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2)
    (Cert.ReferenceIdeal.Value.run (F := Ideal) m ρ)

/-- Run from memories agreeing on the arguments, the kernel ends with its two result arrays at the attention
    functions of its arguments, and the reference ends with its two results at the same functions of its own. -/
theorem algebraic : Cert.algebraic_KernelIdeal_ReferenceIdeal := by
  intro m ρ m' ρ' _ hagree
  refine ⟨fun c => Cert.KernelIdeal.Whole.outOf m c, fun c => Cert.KernelIdeal.Whole.weightsOf m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v18_eq, Cert.Attn.Ref.out_eq, (hagree c).1, (hagree c).2.1,
      (hagree c).2.2.1, (hagree c).2.2.2.1, (hagree c).2.2.2.2.1, (hagree c).2.2.2.2.2.1, (hagree c).2.2.2.2.2.2]
  · rw [Cert.ReferenceIdeal.Read.val_main_v16_eq, Cert.Attn.Ref.weights_eq, (hagree c).1, (hagree c).2.1,
      (hagree c).2.2.2.1, (hagree c).2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
